-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v13 main_v16
  main_v17

def fn {F : FTy → Type} [FloatOps F] (main_arg0 : FVec F S8192x128 .f32) (main_arg1 : FVec F S8192x128 .f32) (main_arg2 : FVec F S8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_cst_4 : FVec F S_ .f32 := constant S_ .f32 0x00000000#32
  let main_v14 : FVec F S8192 .f32 := broadcastInDim S8192 ![] bcast_S_S8192 main_cst_4
  let main_v15 : IVec S8192 1 := cmpf .une main_arg2 main_v14
  let main_c_5 : IVec S_ 1 := constantI S_ 1 1#1
  fn_part1 (F := F) main_v13 main_v15 main_c_5
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S128 : Shape := ⟨1, ![128]⟩
abbrev S1x128 : Shape := ⟨2, ![1, 128]⟩

abbrev nBuf : Space → Nat
  | .hbm => 34
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x128, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S1x8192, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S_S8192 : S_.BroadcastsInDim S8192 (![] : Fin 0 → Fin S8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  reducesTo_S8192x128_S128_d0 : S8192x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  reducesTo_S8192x128_S_d0_1 : S8192x128.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S128 : Shape := ⟨1, ![128]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x128, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S128x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S8192x128_S128_d0 : S8192x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  reducesTo_S8192x128_S_d0_1 : S8192x128.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The quantities both programs compute, as functions of the three argument arrays read by coordinates,
  on the extended reals: squared row norms, dot products, the clamped distance, the logits in the two
  spellings (a product with the reciprocal of the scale; a quotient by the scale), the entropy of a row's
  softmax in the two arrangements (sums of exp z and of exp z * z accumulated over eight column blocks
  of 1024, then log L - A / L; a log-softmax shifted by a number mx, then the sum of -p * log p), and the
  final scalar (the mean of the row entropies minus a second term).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shape of the two point arrays (8192 points of dimension 128) and of the scale vector. -/
abbrev SX : Shape := ⟨2, ![8192, 128]⟩
abbrev SS : Shape := ⟨1, ![8192]⟩

/-- The four float literals both programs carry, as the extended reals their words denote: 0, 1, 2, 8192. -/
abbrev w0 : EReal := Ideal.ofBits .f32 0x00000000#32
abbrev w1 : EReal := Ideal.ofBits .f32 0x3F800000#32
abbrev w2 : EReal := Ideal.ofBits .f32 0x40000000#32
abbrev wN : EReal := Ideal.ofBits .f32 0x46000000#32

/-- The squared norm of row `i`: the host's sum from the zero literal. -/
def sqn (A : SX.Idx → EReal) (i : Fin 8192) : EReal := w0 + ∑ d : Fin 128, A (ix2 i d) * A (ix2 i d)

/-- The dot product of row `i` of `X` with row `k` of `M`. -/
def dotp (X M : SX.Idx → EReal) (i k : Fin 8192) : EReal := ∑ d : Fin 128, X (ix2 i d) * M (ix2 k d)

/-- The distance between point `i` and centre `k`, from the expanded square clamped at zero. -/
def dist (X M : SX.Idx → EReal) (i k : Fin 8192) : EReal :=
  Ideal.sqrt (max ((sqn X i + sqn M k) - w2 * dotp X M i k) w0)

/-- The logit as a product with the reciprocal of the scale. -/
def logitK (X M : SX.Idx → EReal) (S : SS.Idx → EReal) (i k : Fin 8192) : EReal :=
  (w0 - dist X M i k) * Ideal.div w1 (S (ix1 k))

/-- The logit as a quotient by the scale. -/
def logitR (X M : SX.Idx → EReal) (S : SS.Idx → EReal) (i k : Fin 8192) : EReal :=
  Ideal.div (-(dist X M i k)) (S (ix1 k))

/-- Column `j` of column block `b` (eight blocks of 1024 columns). -/
def col (b : Fin 8) (j : Fin 1024) : Fin 8192 := ⟨b.val * 1024 + j.val, by have := b.isLt; have := j.isLt; omega⟩

/-- An accumulator over the eight column blocks, in block order, from the zero literal. -/
def accK (s : Fin 8 → EReal) : (n : ℕ) → n < 8 → EReal
  | 0, h => w0 + s ⟨0, h⟩
  | n + 1, h => accK s n (Nat.lt_of_succ_lt h) + s ⟨n + 1, h⟩

/-- One block's sum of exp z, and of exp z * z. -/
def sumP (Z : Fin 8192 → EReal) (b : Fin 8) : EReal := ∑ j : Fin 1024, Ideal.exp (Z (col b j))
def sumPZ (Z : Fin 8192 → EReal) (b : Fin 8) : EReal := ∑ j : Fin 1024, Ideal.exp (Z (col b j)) * Z (col b j)

/-- A row's entropy as log L - A / L over the accumulated sums. -/
def entK (Z : Fin 8192 → EReal) : EReal :=
  Ideal.log (accK (sumP Z) 7 (by omega)) - Ideal.div (accK (sumPZ Z) 7 (by omega)) (accK (sumP Z) 7 (by omega))

/-- The log of the sum of exponentials shifted by `mx`. -/
def lseR (Z : Fin 8192 → EReal) (mx : EReal) : EReal := Ideal.log (w0 + ∑ k : Fin 8192, Ideal.exp (Z k - mx))

/-- A row's entropy as the sum of -p * log p over the log-softmax shifted by `mx`. -/
def entR (Z : Fin 8192 → EReal) (mx : EReal) : EReal :=
  w0 + ∑ k : Fin 8192, (-(Ideal.exp ((Z k - mx) - lseR Z mx))) * ((Z k - mx) - lseR Z mx)

/-- The final scalar: the mean of the row values minus a second term. -/
def final (E : Fin 8192 → EReal) (T : EReal) : EReal := Ideal.div (w0 + ∑ i : Fin 8192, E i) wN - T

end Cert.Spec

end
-- ==== Proof.LibRowSum.lean ====
/-
  Rows of a matrix summed along the lanes, and the column that sum is kept as.

  A reduction of an [a, b] array along its second axis is read at a row as the sum of that row's b entries, both
  when a vector unit does it (a multi-reduction with add) and when the host does it (a reduce with an add body from a zero
  initial value).  The result, a vector of a entries, is usually kept as a column [a, 1] and spread back over b lanes;
  the column forms of the layout operations are read here at an index given by coordinates: a vector [a] cast or
  broadcast to the column [a, 1], and the column [a, 1] broadcast to [a, b].  Every lemma is over arbitrary extents and
  mentions no program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRowSum

open Idealize.ShloMosaic Idealize.ShloMosaic.ValueIdx

variable {α : Type}

/-! ## The column forms of the layout operations -/

/-- A vector [a] cast to the column [a, 1] reads, at (i, u), the vector at i: the two row-major positions are
    i and i * 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a vector [a] into the column [a, 1] along axis 0 reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's broadcast of a column [a, 1] to [a, b] along both axes reads, at (p, c), the column's entry of row p. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's sum -/

/-- The source index a lane reduction reads for row r and lane k is (r, k). -/
theorem lift_lane {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A vector unit's add reduction of an [a, b] array along the lanes, read at row r at the ideal values, is the sum of the
    row's entries.  The accumulator's word is any word that is the sum's neutral one. -/
theorem multiReduction_lane_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_lane h r k)

/-- The host's reduce of an [a, b] array along the lanes with an add body, read at row r at the ideal values, is the
    initial value plus the sum of the row's entries. -/
theorem hostReduceAdd_lane_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

end Cert.LibRowSum

end
-- ==== Proof.KPayload.lean ====
import proofs.«123716_j58634893525570_2_alg».proof.Proof.Gen.KernelIdeal.Skeleton
import proofs.«123716_j58634893525570_2_alg».proof.Proof.Spec
import proofs.«123716_j58634893525570_2_alg».proof.Proof.LibRowSum
import Idealize.ShloMosaic.Lib.Pipeline.Value
import Idealize.ShloMosaic.Lib.ValueIdx
import Idealize.ShloMosaic.Lib.ValueLayout
import Idealize.ShloMosaic.PureOps.Ideal.Laws

/-
  The body's arithmetic read at one element, on the extended reals. For a row r of the row block
  and a column j of the column block: the logit is (0 - sqrt (max ((|x_r|^2 + |m_j|^2) - 2 <x_r, m_j>) 0))
  times the reciprocal scale of column j, the dot product being the sum over the 128 coordinates;
  an accumulator step adds to the old value at row r the sum over the block's 1024 columns of exp z,
  or of exp z * z; the output at row r is log L - A / L.
-/
noncomputable section

open scoped BigOperators

namespace Cert.KernelIdeal.KValue

open Cert.KernelIdeal Cert.KernelIdeal.Gen Cert.Spec Cert.LibRowSum
open Idealize.ShloMosaic Idealize.ShloMosaic.ValueIdx

/-! ## The matrix product of a row block with a transposed column block -/

theorem dot_lhs0 (i : S1024x1024.Idx) (q : dot_S1024x128_S128x1024_S1024x1024_1_0_0_1_n_n.contr.Idx) : (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem dot_lhs1 (i : S1024x1024.Idx) (q : dot_S1024x128_S128x1024_S1024x1024_1_0_0_1_n_n.contr.Idx) : (dot_S1024x128_S128x1024_S1024x1024_1_0_0_1_n_n.lhsIdx i q 1).val = (q ⟨0, by decide⟩).val :=
  dot_S1024x128_S128x1024_S1024x1024_1_0_0_1_n_n.lhsIdx_val_of_single rfl i q
theorem dot_rhs0 (i : S1024x1024.Idx) (q : dot_S1024x128_S128x1024_S1024x1024_1_0_0_1_n_n.contr.Idx) : (dot_S1024x128_S128x1024_S1024x1024_1_0_0_1_n_n.rhsIdx i q 0).val = (q ⟨0, by decide⟩).val :=
  dot_S1024x128_S128x1024_S1024x1024_1_0_0_1_n_n.rhsIdx_val_of_single rfl i q
theorem dot_rhs1 (i : S1024x1024.Idx) (q : dot_S1024x128_S128x1024_S1024x1024_1_0_0_1_n_n.contr.Idx) : (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product into the zero accumulator, at (r, j): the sum over the 128 coordinates. -/
theorem matmul_at (a : FVec Ideal S1024x128 .bf16) (b : FVec Ideal S128x1024 .bf16) (r j : Fin 1024) :
    matmul dot_S1024x128_S128x1024_S1024x1024_1_0_0_1_n_n none a b (constant S1024x1024 .f32 0x00000000#32) (ix2 r j)
      = ∑ d : Fin 128, a (ix2 r d) * b (ix2 d j) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r j) ((contrEquiv1 dot_S1024x128_S128x1024_S1024x1024_1_0_0_1_n_n 128 rfl rfl).symm k) = ix2 r k := funext fun c => Fin.ext (by
    match c with
    | ⟨0, _⟩ => exact dot_lhs0 _ _
    | ⟨1, _⟩ => exact (dot_lhs1 _ _).trans hk)
  have er : dot_S1024x128_S128x1024_S1024x1024_1_0_0_1_n_n.rhsIdx (ix2 r j) ((contrEquiv1 dot_S1024x128_S128x1024_S1024x1024_1_0_0_1_n_n 128 rfl rfl).symm k) = ix2 k j := funext fun c => Fin.ext (by
    match c with
    | ⟨0, _⟩ => exact (dot_rhs0 _ _).trans hk
    | ⟨1, _⟩ => exact dot_rhs1 _ _)
  rw [el, er]

/-! ## The payloads at an element -/

/-- The vector square root and exponential at an element. -/
theorem sqrt_at {s : Shape} {φ : FTy} (v : FVec Ideal s φ) (i : s.Idx) : sqrt v i = Ideal.sqrt (v i) := rfl
theorem exp_at {s : Shape} {φ : FTy} (v : FVec Ideal s φ) (i : s.Idx) : exp v i = Ideal.exp (v i) := rfl

/-- The logit of row r and column j of the blocks. -/
theorem pay5_apply (x0 x1 : Vec Ideal S1024x128 .f32) (x2 : Vec Ideal S1024x1 .f32) (x3 x4 : Vec Ideal S1x1024 .f32) (r j : Fin 1024) :
    k0_pay5 (F := Ideal) x0 x1 x2 x3 x4 (ix2 r j)
      = (w0 - Ideal.sqrt (max ((x2 (ix2 r (0 : Fin 1)) + x3 (ix2 (0 : Fin 1) j)) - w2 * ∑ d : Fin 128, x0 (ix2 r d) * x1 (ix2 j d)) w0))
          * x4 (ix2 (0 : Fin 1) j) := by
  unfold k0_pay5
  simp only [mulf_apply, subf_apply, addf_apply, maximumf_apply, sqrt_at, broadcast_apply, shapeCast_self]
  rw [broadcastTo_a1_ab_apply, broadcastTo_1b_ab_apply, broadcastTo_1b_ab_apply, matmul_at]
  refine congrArg (fun s => (w0 - Ideal.sqrt (max ((x2 (ix2 r (0 : Fin 1)) + x3 (ix2 (0 : Fin 1) j)) - w2 * s) w0)) * x4 (ix2 (0 : Fin 1) j)) ?_
  exact Finset.sum_congr rfl fun d _ => congrArg (x0 (ix2 r d) * ·) (transpose_ix2_apply _ _ d j)

/-- exp of the logit. -/
theorem pay6_apply (x0 x1 : Vec Ideal S1024x128 .f32) (x2 : Vec Ideal S1024x1 .f32) (x3 x4 : Vec Ideal S1x1024 .f32) (r j : Fin 1024) :
    k0_pay6 (F := Ideal) x0 x1 x2 x3 x4 (ix2 r j) = Ideal.exp (k0_pay5 (F := Ideal) x0 x1 x2 x3 x4 (ix2 r j)) := rfl

/-- A step of the accumulator of exp z at row r. -/
theorem pay7_apply (x0 x1 : Vec Ideal S1024x128 .f32) (x2 : Vec Ideal S1024x1 .f32) (x3 x4 : Vec Ideal S1x1024 .f32)
    (acc : Vec Ideal S1024x1 .f32) (r : Fin 1024) :
    k0_pay7 (F := Ideal) x0 x1 x2 x3 x4 acc (ix2 r (0 : Fin 1))
      = acc (ix2 r (0 : Fin 1)) + ∑ j : Fin 1024, Ideal.exp (k0_pay5 (F := Ideal) x0 x1 x2 x3 x4 (ix2 r j)) := by
  unfold k0_pay7
  rw [shapeCast_self]
  show acc (ix2 r (0 : Fin 1)) + shapeCast S1024x1 (multiReduction .add [1] S1024 (k0_pay6 (F := Ideal) x0 x1 x2 x3 x4) 0x00000000#32 reduces_S1024x1024_S1024 (.inl rfl) rfl) shapeCasts_S1024_S1024x1 (ix2 r (0 : Fin 1)) = _
  rw [shapeCast_a_a1_apply]
  exact congrArg (acc (ix2 r (0 : Fin 1)) + ·) (multiReduction_lane_apply _ _ _ _ _ r)

/-- A step of the accumulator of exp z * z at row r. -/
theorem pay1_apply (v27 v28 : FVec Ideal S1024x1024 .f32) (acc : Vec Ideal S1024x1 .f32) (r : Fin 1024) :
    k0_pay1 (F := Ideal) v27 v28 acc (ix2 r (0 : Fin 1))
      = acc (ix2 r (0 : Fin 1)) + ∑ j : Fin 1024, v28 (ix2 r j) * v27 (ix2 r j) := by
  unfold k0_pay1
  rw [shapeCast_self]
  show acc (ix2 r (0 : Fin 1)) + shapeCast S1024x1 (multiReduction .add [1] S1024 (mulf v28 v27) 0x00000000#32 reduces_S1024x1024_S1024 (.inl rfl) rfl) shapeCasts_S1024_S1024x1 (ix2 r (0 : Fin 1)) = _
  rw [shapeCast_a_a1_apply]
  exact congrArg (acc (ix2 r (0 : Fin 1)) + ·) (multiReduction_lane_apply _ _ _ _ _ r)

/-- The output at row r: log L - A / L. -/
theorem pay2_apply (l a : Vec Ideal S1024x1 .f32) (y : S1024x1.Idx) :
    k0_pay2 (F := Ideal) l a y = Ideal.log (l y) - Ideal.div (a y) (l y) := rfl

/-- The reset values: zero at every row. -/
theorem pay3_apply (y : S1024x1.Idx) : k0_pay3 (F := Ideal) y = w0 := by
  unfold k0_pay3; rw [shapeCast_self]; rfl
theorem pay4_apply (y : S1024x1.Idx) : k0_pay4 (F := Ideal) y = w0 := by
  unfold k0_pay4; rw [shapeCast_self]; rfl

end Cert.KernelIdeal.KValue
end
-- ==== Proof.KBlocks.lean ====
import proofs.«123716_j58634893525570_2_alg».proof.Proof.Gen.KernelIdeal.Frame
import proofs.«123716_j58634893525570_2_alg».proof.Proof.KPayload
import Idealize.ShloMosaic.Lib.StableHlo.Run

set_option maxRecDepth 16384

/-
  What the five input windows hold at a grid point, read at an element. Point t works on row block
  t / 8 and column block t % 8: the blocks of x and of its squared row norms are rows
  (t / 8) * 1024 + r, the blocks of m, of its squared row norms and of the reciprocal scales are rows
  (columns of the logit matrix) (t % 8) * 1024 + j. The squared norms and the reciprocal scales are
  the host's arrays computed before the launch, read here at an index. Together: the body's logit at
  (r, j) is the specification's logit of that row and column.
-/
noncomputable section

open scoped BigOperators

namespace Cert.KernelIdeal.KValue

open Cert.KernelIdeal Cert.KernelIdeal.Gen Cert.Spec Cert.LibRowSum
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The row of the whole array that row r of point t's row block is, and the column that column j of its column block is. -/
def rowOf (t : Fin cfg0.N) (r : Fin 1024) : Fin 8192 :=
  ⟨(t.val / 8) * 1024 + r.val, by have := t.isLt; have hN : cfg0.N = 64 := N_0; have := r.isLt; omega⟩
def colOf (t : Fin cfg0.N) (j : Fin 1024) : Fin 8192 :=
  ⟨(t.val % 8) * 1024 + j.val, by have := j.isLt; omega⟩

/-- The windows' block indices over the grid. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = 0 ∧ win0_4.index t 1 = t.val % 8 :=
  (by decide +kernel : ∀ t : Fin grid0.N, win0_4.index t 0 = 0 ∧ win0_4.index t 1 = t.val % 8)
theorem idx5 : ∀ t : Fin cfg0.N, win0_5.index t 0 = t.val / 8 ∧ win0_5.index t 1 = 0 :=
  (by decide +kernel : ∀ t : Fin grid0.N, win0_5.index t 0 = t.val / 8 ∧ win0_5.index t 1 = 0)

/-! ## The blocks read at an element -/

theorem iblk0_apply (c : Dev nD) (t : Fin cfg0.N) (r : Fin 1024) (d : Fin 128) :
    (iblk m c 0 t : Vec Ideal S1024x128 .f32) (ix2 r d) = (V m c main_arg0 : S8192x128.Idx → EReal) (ix2 (rowOf t r) d) := by
  have hi := idx0 t
  unfold iblk
  rw [View.read_apply]
  show (V m c main_arg0 : S8192x128.Idx → EReal) _ = _
  refine congrArg (V m c main_arg0 : S8192x128.Idx → EReal) (funext fun a => Fin.ext ?_)
  match a with
  | ⟨0, _⟩ => show win0_0.index t 0 * 1024 + 1 * r.val = (t.val / 8) * 1024 + r.val; rw [hi.1]; omega
  | ⟨1, _⟩ => show win0_0.index t 1 * 128 + 1 * d.val = d.val; rw [hi.2]; omega

theorem iblk1_apply (c : Dev nD) (t : Fin cfg0.N) (j : Fin 1024) (d : Fin 128) :
    (iblk m c 1 t : Vec Ideal S1024x128 .f32) (ix2 j d) = (V m c main_arg1 : S8192x128.Idx → EReal) (ix2 (colOf t j) d) := by
  have hi := idx1 t
  unfold iblk
  rw [View.read_apply]
  show (V m c main_arg1 : S8192x128.Idx → EReal) _ = _
  refine congrArg (V m c main_arg1 : S8192x128.Idx → EReal) (funext fun a => Fin.ext ?_)
  match a with
  | ⟨0, _⟩ => show win0_1.index t 0 * 1024 + 1 * j.val = (t.val % 8) * 1024 + j.val; rw [hi.1]; omega
  | ⟨1, _⟩ => show win0_1.index t 1 * 128 + 1 * d.val = d.val; rw [hi.2]; omega

theorem iblk2_apply (c : Dev nD) (t : Fin cfg0.N) (r : Fin 1024) :
    (iblk m c 2 t : Vec Ideal S1024x1 .f32) (ix2 r (0 : Fin 1)) = (V m c main_v2 : S8192x1.Idx → EReal) (ix2 (rowOf t r) (0 : Fin 1)) := by
  have hi := idx2 t
  unfold iblk
  rw [View.read_apply]
  show (V m c main_v2 : S8192x1.Idx → EReal) _ = _
  refine congrArg (V m c main_v2 : S8192x1.Idx → EReal) (funext fun a => Fin.ext ?_)
  match a with
  | ⟨0, _⟩ => show win0_2.index t 0 * 1024 + 1 * r.val = (t.val / 8) * 1024 + r.val; rw [hi.1]; omega
  | ⟨1, _⟩ => show win0_2.index t 1 * 1 + 1 * 0 = 0; rw [hi.2]

theorem iblk3_apply (c : Dev nD) (t : Fin cfg0.N) (j : Fin 1024) :
    (iblk m c 3 t : Vec Ideal S1x1024 .f32) (ix2 (0 : Fin 1) j) = (V m c main_v5 : S1x8192.Idx → EReal) (ix2 (0 : Fin 1) (colOf t j)) := by
  have hi := idx3 t
  unfold iblk
  rw [View.read_apply]
  show (V m c main_v5 : S1x8192.Idx → EReal) _ = _
  refine congrArg (V m c main_v5 : S1x8192.Idx → EReal) (funext fun a => Fin.ext ?_)
  match a with
  | ⟨0, _⟩ => show win0_3.index t 0 * 1 + 1 * 0 = 0; rw [hi.1]
  | ⟨1, _⟩ => show win0_3.index t 1 * 1024 + 1 * j.val = (t.val % 8) * 1024 + j.val; rw [hi.2]; omega

theorem iblk4_apply (c : Dev nD) (t : Fin cfg0.N) (j : Fin 1024) :
    (iblk m c 4 t : Vec Ideal S1x1024 .f32) (ix2 (0 : Fin 1) j) = (V m c main_v8 : S1x8192.Idx → EReal) (ix2 (0 : Fin 1) (colOf t j)) := by
  have hi := idx4 t
  unfold iblk
  rw [View.read_apply]
  show (V m c main_v8 : S1x8192.Idx → EReal) _ = _
  refine congrArg (V m c main_v8 : S1x8192.Idx → EReal) (funext fun a => Fin.ext ?_)
  match a with
  | ⟨0, _⟩ => show win0_4.index t 0 * 1 + 1 * 0 = 0; rw [hi.1]
  | ⟨1, _⟩ => show win0_4.index t 1 * 1024 + 1 * j.val = (t.val % 8) * 1024 + j.val; rw [hi.2]; omega

/-! ## The host's arrays before the launch, read at an element -/

/-- The three argument arrays as the launch finds them. -/
abbrev argX (c : Dev nD) : S8192x128.Idx → EReal := m ((c : Thread nD τ).loc main_arg0)
abbrev argM (c : Dev nD) : S8192x128.Idx → EReal := m ((c : Thread nD τ).loc main_arg1)
abbrev argS (c : Dev nD) : S8192.Idx → EReal := m ((c : Thread nD τ).loc main_arg2)

/-- A vector [a] broadcast to the row [1, a] along axis 1 reads, at (u, k), the vector at k. -/
theorem broadcastInDim_a_1a_apply {α : Type} {a : ℕ} (x : (⟨1, ![a]⟩ : Shape).Idx → α)
    (h : (⟨1, ![a]⟩ : Shape).BroadcastsInDim ⟨2, ![1, a]⟩ ![1]) (u : Fin 1) (k : Fin a) :
    broadcastInDim ⟨2, ![1, a]⟩ ![1] h x (ix2 u k) = x (ix1 k) := by
  refine broadcastInDim_apply _ h x (ix2 u k) (ix1 k) fun ax => ?_
  match ax with
  | ⟨0, _⟩ =>
    show k.val = if a = 1 then 0 else k.val
    split
    · have := k.isLt; omega
    · rfl

theorem V_main_v2_eq (c : Dev nD) : (V m c main_v2 : S8192x1.Idx → EReal)
    = broadcastInDim S8192x1 ![0] bcast_S8192_S8192x1_0 (Host.reduceAdd (mulf (argX m c) (argX m c)) (constant (F := Ideal) S_ .f32 0x00000000#32) reducesTo_S8192x128_S8192_d1 h_S_) := by
  show StableHlo.after hostOps0 (fun b => m (c, b)) (Proc.devRef .tc main_v2) = _
  after_results

theorem V_main_v5_eq (c : Dev nD) : (V m c main_v5 : S1x8192.Idx → EReal)
    = broadcastInDim S1x8192 ![1] bcast_S8192_S1x8192_1 (Host.reduceAdd (mulf (argM m c) (argM m c)) (constant (F := Ideal) S_ .f32 0x00000000#32) reducesTo_S8192x128_S8192_d1 h_S_) := by
  show StableHlo.after hostOps0 (fun b => m (c, b)) (Proc.devRef .tc main_v5) = _
  after_results

theorem V_main_v8_eq (c : Dev nD) : (V m c main_v8 : S1x8192.Idx → EReal)
    = broadcastInDim S1x8192 ![1] bcast_S8192_S1x8192_1 (Host.divf (broadcastInDim S8192 ![] bcast_S_S8192 (constant (F := Ideal) S_ .f32 0x3F800000#32)) (argS m c)) := by
  show StableHlo.after hostOps0 (fun b => m (c, b)) (Proc.devRef .tc main_v8) = _
  after_results

theorem red_lanes : S8192x128.Reduces [1] S8192 := by decide

/-- The squared norm of row i of x, as the launch's third operand holds it. -/
theorem sqnX_at (c : Dev nD) (i : Fin 8192) :
    (V m c main_v2 : S8192x1.Idx → EReal) (ix2 i (0 : Fin 1)) = sqn (argX m c) i := by
  rw [V_main_v2_eq, broadcastInDim_a_a1_apply, hostReduceAdd_lane_apply _ _ _ _ red_lanes]
  rfl

/-- The squared norm of row k of m, as the launch's fourth operand holds it. -/
theorem sqnM_at (c : Dev nD) (k : Fin 8192) :
    (V m c main_v5 : S1x8192.Idx → EReal) (ix2 (0 : Fin 1) k) = sqn (argM m c) k := by
  rw [V_main_v5_eq, broadcastInDim_a_1a_apply, hostReduceAdd_lane_apply _ _ _ _ red_lanes]
  rfl

/-- The reciprocal of scale k, as the launch's fifth operand holds it. -/
theorem invS_at (c : Dev nD) (k : Fin 8192) :
    (V m c main_v8 : S1x8192.Idx → EReal) (ix2 (0 : Fin 1) k) = Ideal.div w1 (argS m c (ix1 k)) := by
  rw [V_main_v8_eq, broadcastInDim_a_1a_apply]
  show Ideal.div (broadcastInDim S8192 ![] bcast_S_S8192 (constant (F := Ideal) S_ .f32 0x3F800000#32) (ix1 k)) (argS m c (ix1 k)) = _
  rw [broadcastInDim_apply _ bcast_S_S8192 _ (ix1 k) ix0 (fun a => a.elim0)]
  rfl

/-! ## The body's logit is the specification's -/

/-- The dot product of two blocks' rows is the dot product of the rows of the whole arrays they are. -/
theorem dot_blocks (a b : Vec Ideal S1024x128 .f32) (X M : S8192x128.Idx → EReal) (i k : Fin 8192) (r j : Fin 1024)
    (ha : ∀ d : Fin 128, a (ix2 r d) = X (ix2 i d)) (hb : ∀ d : Fin 128, b (ix2 j d) = M (ix2 k d)) :
    ∑ d : Fin 128, a (ix2 r d) * b (ix2 j d) = dotp X M i k := by
  unfold dotp
  exact Finset.sum_congr rfl fun d _ => by rw [ha d, hb d]

theorem logit_at (c : Dev nD) (t : Fin cfg0.N) (r j : Fin 1024) :
    k0_pay5 (F := Ideal) (iblk m c 0 t) (iblk m c 1 t) (iblk m c 2 t) (iblk m c 3 t) (iblk m c 4 t) (ix2 r j)
      = logitK (argX m c) (argM m c) (argS m c) (rowOf t r) (colOf t j) := by
  refine (pay5_apply (iblk m c 0 t) (iblk m c 1 t) (iblk m c 2 t) (iblk m c 3 t) (iblk m c 4 t) r j).trans ?_
  rw [iblk2_apply, iblk3_apply, iblk4_apply, sqnX_at, sqnM_at, invS_at,
    dot_blocks (iblk m c 0 t) (iblk m c 1 t) (argX m c) (argM m c) (rowOf t r) (colOf t j) r j
      (fun d => by rw [iblk0_apply, V_main_arg0]) (fun d => by rw [iblk1_apply, V_main_arg1])]
  rfl

end Cert.KernelIdeal.KValue
end
-- ==== Proof.KPieces.lean ====
import proofs.«123716_j58634893525570_2_alg».proof.Proof.Gen.KernelIdeal.Frame
import Idealize.ShloMosaic.Lib.Pipeline.Value
import Idealize.ShloMosaic.Lib.Tactic

set_option maxRecDepth 16384

/-
  What one grid point's body leaves in the two accumulators and in the output block, as the payload
  terms of the blocks it loads. At the first column block of a row block the accumulators are reset
  to zero and then receive the block's row sums; at the later column blocks they receive the row sums
  on top of what the point before left; at the last column block the output block is
  log L - A / L of the two accumulators just updated.
-/
noncomputable section

open Idealize.ShloMosaic Idealize.ShloMosaic.TcCoe Idealize.SL.Sem Idealize.ShloMosaic.Tactic
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- First column block: the accumulator of exp z is the zero block plus the block's row sums. -/
theorem sA0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .f32) (x3 : Vec F S1x1024 .f32) (x4 : Vec F S1x1024 .f32)  :
    sout0_A_0 c i arg2 harg2 arg3 harg3 arg4 harg4 arg5 harg5 arg6 harg6 arg7 harg7 arg8 harg8 arg9 harg9 hc0 hc1 x0 x1 x2 x3 x4 = k0_pay7 x0 x1 x2 x3 x4 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg8.read_unread, harg9.read_unread, View.ld_unit_zero (S := S1024x128) hz, View.ld_unit_zero (S := S1024x1) hz, View.ld_unit_zero (S := S1x1024) hz]

/-- First column block: the accumulator of exp z * z likewise. -/
theorem sA1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .f32) (x3 : Vec F S1x1024 .f32) (x4 : Vec F S1x1024 .f32)  :
    sout0_A_1 c i arg2 harg2 arg3 harg3 arg4 harg4 arg5 harg5 arg6 harg6 arg7 harg7 arg8 harg8 arg9 harg9 hc0 hc1 x0 x1 x2 x3 x4 = k0_pay1 (k0_pay5 x0 x1 x2 x3 x4) (k0_pay6 x0 x1 x2 x3 x4) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg8.read_unread, harg9.read_unread, View.ld_unit_zero (S := S1024x128) hz, View.ld_unit_zero (S := S1024x1) hz, View.ld_unit_zero (S := S1x1024) hz]

/-- A middle column block: the accumulator of exp z grows by the block's row sums. -/
theorem sB0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .f32) (x3 : Vec F S1x1024 .f32) (x4 : Vec F S1x1024 .f32) (xs0 : Vec F S1024x1 .f32) (xs1 : Vec F S1024x1 .f32) :
    sout0_B_0 c i arg2 harg2 arg3 harg3 arg4 harg4 arg5 harg5 arg6 harg6 arg7 harg7 arg8 harg8 arg9 harg9 hc0 hc1 x0 x1 x2 x3 x4 xs0 xs1 = k0_pay7 x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg8.read_unread, harg9.read_unread, View.ld_unit_zero (S := S1024x128) hz, View.ld_unit_zero (S := S1024x1) hz, View.ld_unit_zero (S := S1x1024) hz]

/-- A middle column block: the accumulator of exp z * z likewise. -/
theorem sB1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .f32) (x3 : Vec F S1x1024 .f32) (x4 : Vec F S1x1024 .f32) (xs0 : Vec F S1024x1 .f32) (xs1 : Vec F S1024x1 .f32) :
    sout0_B_1 c i arg2 harg2 arg3 harg3 arg4 harg4 arg5 harg5 arg6 harg6 arg7 harg7 arg8 harg8 arg9 harg9 hc0 hc1 x0 x1 x2 x3 x4 xs0 xs1 = k0_pay1 (k0_pay5 x0 x1 x2 x3 x4) (k0_pay6 x0 x1 x2 x3 x4) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg8.read_unread, harg9.read_unread, View.ld_unit_zero (S := S1024x128) hz, View.ld_unit_zero (S := S1024x1) hz, View.ld_unit_zero (S := S1x1024) hz]

/-- The last column block: the accumulator of exp z grows by the block's row sums. -/
theorem sC0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .f32) (x3 : Vec F S1x1024 .f32) (x4 : Vec F S1x1024 .f32) (xs0 : Vec F S1024x1 .f32) (xs1 : Vec F S1024x1 .f32) :
    sout0_C_0 c i arg2 harg2 arg3 harg3 arg4 harg4 arg5 harg5 arg6 harg6 arg7 harg7 arg8 harg8 arg9 harg9 hc0 hc1 x0 x1 x2 x3 x4 xs0 xs1 = k0_pay7 x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg8.read_unread, harg9.read_unread, View.ld_unit_zero (S := S1024x128) hz, View.ld_unit_zero (S := S1024x1) hz, View.ld_unit_zero (S := S1x1024) hz]

/-- The last column block: the accumulator of exp z * z likewise. -/
theorem sC1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .f32) (x3 : Vec F S1x1024 .f32) (x4 : Vec F S1x1024 .f32) (xs0 : Vec F S1024x1 .f32) (xs1 : Vec F S1024x1 .f32) :
    sout0_C_1 c i arg2 harg2 arg3 harg3 arg4 harg4 arg5 harg5 arg6 harg6 arg7 harg7 arg8 harg8 arg9 harg9 hc0 hc1 x0 x1 x2 x3 x4 xs0 xs1 = k0_pay1 (k0_pay5 x0 x1 x2 x3 x4) (k0_pay6 x0 x1 x2 x3 x4) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg8.read_unread, harg9.read_unread, View.ld_unit_zero (S := S1024x128) hz, View.ld_unit_zero (S := S1024x1) hz, View.ld_unit_zero (S := S1x1024) hz]

/-- The last column block: the output block is log L - A / L of the two accumulators just updated. -/
theorem oC5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .f32) (x3 : Vec F S1x1024 .f32) (x4 : Vec F S1x1024 .f32) (xs0 : Vec F S1024x1 .f32) (xs1 : Vec F S1024x1 .f32) :
    out0_C_5 c i arg2 harg2 arg3 harg3 arg4 harg4 arg5 harg5 arg6 harg6 arg7 harg7 arg8 harg8 arg9 harg9 hc0 hc1 x0 x1 x2 x3 x4 xs0 xs1 = k0_pay2 (k0_pay7 x0 x1 x2 x3 x4 xs0) (k0_pay1 (k0_pay5 x0 x1 x2 x3 x4) (k0_pay6 x0 x1 x2 x3 x4) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg8.read_unread, harg9.read_unread, View.ld_unit_zero (S := S1024x128) hz, View.ld_unit_zero (S := S1024x1) hz, View.ld_unit_zero (S := S1x1024) hz]

end Cert.KernelIdeal.KValue
end
-- ==== Proof.KChain.lean ====
import proofs.«123716_j58634893525570_2_alg».proof.Proof.KPieces

set_option maxRecDepth 16384

/-
  The two accumulators after each grid point, in closed form: the grid runs row block by row block
  and, inside a row block, over the eight column blocks; at a row block's first column block the
  accumulators restart from zero, afterwards each step adds the column block's row sums to what the
  step before left. At a row block's last column block the output block is log L - A / L of them.
-/
noncomputable section

open Idealize.ShloMosaic Idealize.ShloMosaic.TcCoe Idealize.SL.Sem Idealize.ShloMosaic.Tactic
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- One step of the accumulator of exp z at point `t`: the row sums of the point's blocks on top of `acc`. -/
abbrev stepL (c : Dev nD) (t : Fin cfg0.N) (acc : Vec F S1024x1 .f32) : Vec F S1024x1 .f32 :=
  k0_pay7 (iblk m c 0 t) (iblk m c 1 t) (iblk m c 2 t) (iblk m c 3 t) (iblk m c 4 t) acc
/-- One step of the accumulator of exp z * z. -/
abbrev stepA (c : Dev nD) (t : Fin cfg0.N) (acc : Vec F S1024x1 .f32) : Vec F S1024x1 .f32 :=
  k0_pay1 (k0_pay5 (iblk m c 0 t) (iblk m c 1 t) (iblk m c 2 t) (iblk m c 3 t) (iblk m c 4 t)) (k0_pay6 (iblk m c 0 t) (iblk m c 1 t) (iblk m c 2 t) (iblk m c 3 t) (iblk m c 4 t)) acc

/-- The two accumulators after point `n`. -/
def chain (c : Dev nD) : (n : ℕ) → n < cfg0.N → Vec F S1024x1 .f32 × Vec F S1024x1 .f32
  | 0, h => (stepL m c ⟨0, h⟩ k0_pay3, stepA m c ⟨0, h⟩ k0_pay4)
  | n + 1, h =>
    if (n + 1) % 8 = 0 then (stepL m c ⟨n + 1, h⟩ k0_pay3, stepA m c ⟨n + 1, h⟩ k0_pay4)
    else (stepL m c ⟨n + 1, h⟩ (chain c n (Nat.lt_of_succ_lt h)).1, stepA m c ⟨n + 1, h⟩ (chain c n (Nat.lt_of_succ_lt h)).2)

theorem chain_succ_reset (c : Dev nD) (n : ℕ) (h : n + 1 < cfg0.N) (h0 : (n + 1) % 8 = 0) :
    chain m c (n + 1) h = (stepL m c ⟨n + 1, h⟩ k0_pay3, stepA m c ⟨n + 1, h⟩ k0_pay4) := by
  rw [chain, if_pos h0]
theorem chain_succ_step (c : Dev nD) (n : ℕ) (h : n + 1 < cfg0.N) (h0 : ¬(n + 1) % 8 = 0) :
    chain m c (n + 1) h = (stepL m c ⟨n + 1, h⟩ (chain m c n (Nat.lt_of_succ_lt h)).1, stepA m c ⟨n + 1, h⟩ (chain m c n (Nat.lt_of_succ_lt h)).2) := by
  rw [chain, if_neg h0]

/-- The carried accumulators after point `n` are the closed form: by induction on the point. -/
theorem outsAt_scratch (c : Dev nD) : ∀ (n : ℕ) (h : n < cfg0.N), (outsAt0 m c n h).2 = chain m c n h
  | 0, h => by
    refine (congrArg Prod.snd (outsAt0_A m c ⟨0, h⟩ rfl (by show ¬(0 % 8 = 7); decide))).trans ?_
    exact congrArg₂ Prod.mk (sA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) _ _ (iblk m c 0 ⟨0, h⟩) (iblk m c 1 ⟨0, h⟩) (iblk m c 2 ⟨0, h⟩) (iblk m c 3 ⟨0, h⟩) (iblk m c 4 ⟨0, h⟩)) (sA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) _ _ (iblk m c 0 ⟨0, h⟩) (iblk m c 1 ⟨0, h⟩) (iblk m c 2 ⟨0, h⟩) (iblk m c 3 ⟨0, h⟩) (iblk m c 4 ⟨0, h⟩))
  | n + 1, h => by
    have hN : cfg0.N = 64 := N_0
    by_cases h0 : (n + 1) % 8 = 0
    · have h1 : ¬(n + 1) % 8 = 7 := by omega
      refine (congrArg Prod.snd (outsAt0_A m c ⟨n + 1, h⟩ h0 h1)).trans ?_
      rw [chain_succ_reset m c n h h0]
      exact congrArg₂ Prod.mk (sA0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)) (sA1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩))
    · have ih := outsAt_scratch c n (Nat.lt_of_succ_lt h)
      rw [chain_succ_step m c n h h0, ← ih]
      by_cases h1 : (n + 1) % 8 = 7
      · refine (congrArg Prod.snd (outsAt0_C m c ⟨n + 1, h⟩ h0 h1)).trans ?_
        exact congrArg₂ Prod.mk (sC0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _ _) (sC1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _ _)
      · refine (congrArg Prod.snd (outsAt0_B m c ⟨n + 1, h⟩ h0 h1)).trans ?_
        exact congrArg₂ Prod.mk (sB0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _ _) (sB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _ _)

/-- At a row block's last column block the output block is log L - A / L of the accumulators. -/
theorem outsAt_out (c : Dev nD) (t : Fin cfg0.N) (h1 : t.val % 8 = 7) :
    (outsAt0 m c t.val t.isLt).1 = k0_pay2 (chain m c t.val t.isLt).1 (chain m c t.val t.isLt).2 := by
  have hN : cfg0.N = 64 := N_0
  obtain ⟨n, hn⟩ := t
  cases n with
  | zero => exact absurd h1 (by show ¬(0 % 8 = 7); decide)
  | succ n =>
    have h0 : ¬(n + 1) % 8 = 0 := by dsimp only at h1; omega
    have ih := outsAt_scratch m c n (Nat.lt_of_succ_lt hn)
    show (outsAt0 m c (n + 1) hn).1 = k0_pay2 (chain m c (n + 1) hn).1 (chain m c (n + 1) hn).2
    refine (congrArg Prod.fst (outsAt0_C m c ⟨n + 1, hn⟩ h0 h1)).trans ?_
    dsimp only
    refine (oC5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) _ _).trans ?_
    rw [chain_succ_step m c n hn h0]
    dsimp only
    exact congrArg₂ k0_pay2 (congrArg (stepL m c ⟨n + 1, hn⟩) (congrArg Prod.fst ih)) (congrArg (stepA m c ⟨n + 1, hn⟩) (congrArg Prod.snd ih))

end Cert.KernelIdeal.KValue
end
-- ==== Proof.KRows.lean ====
import proofs.«123716_j58634893525570_2_alg».proof.Proof.KBlocks
import proofs.«123716_j58634893525570_2_alg».proof.Proof.KChain

set_option maxRecDepth 16384

/-
  The accumulators and the output, row by row, in the specification's terms. For a row i of the whole
  array let Z be its 8192 logits. After the point of column block b the accumulator of exp z holds, at
  the row, the eight-block accumulation of the block sums of exp Z up to block b, and the accumulator of
  exp z * z the same of the block sums of exp Z * Z; at the last column block the output holds log L - A / L.
-/
noncomputable section

open scoped BigOperators

namespace Cert.KernelIdeal.KValue

open Cert.KernelIdeal Cert.KernelIdeal.Gen Cert.Spec
open Idealize.ShloMosaic Idealize.ShloMosaic.TcCoe Idealize.SL.Sem Idealize.ShloMosaic.ValueIdx

variable (m : (ℓ : Loc nD τ sig) → Buf (Elt Ideal) ℓ)

/-- The logits of row i of the whole array. -/
abbrev Zrow (c : Dev nD) (i : Fin 8192) : Fin 8192 → EReal := fun k => logitK (argX m c) (argM m c) (argS m c) i k

/-- The column block of a point. -/
abbrev blkOf (t : Fin cfg0.N) : Fin 8 := ⟨t.val % 8, Nat.mod_lt _ (by decide)⟩

theorem colOf_eq (t : Fin cfg0.N) (j : Fin 1024) : colOf t j = col (blkOf t) j := rfl

/-- One step of the accumulator of exp z, at a row. -/
theorem stepL_at (c : Dev nD) (t : Fin cfg0.N) (acc : Vec Ideal S1024x1 .f32) (r : Fin 1024) :
    stepL m c t acc (ix2 r (0 : Fin 1)) = acc (ix2 r (0 : Fin 1)) + sumP (Zrow m c (rowOf t r)) (blkOf t) := by
  refine (pay7_apply (iblk m c 0 t) (iblk m c 1 t) (iblk m c 2 t) (iblk m c 3 t) (iblk m c 4 t) acc r).trans ?_
  refine congrArg (acc (ix2 r (0 : Fin 1)) + ·) ?_
  unfold sumP
  exact Finset.sum_congr rfl fun j _ => congrArg Ideal.exp (logit_at m c t r j)

/-- One step of the accumulator of exp z * z, at a row. -/
theorem stepA_at (c : Dev nD) (t : Fin cfg0.N) (acc : Vec Ideal S1024x1 .f32) (r : Fin 1024) :
    stepA m c t acc (ix2 r (0 : Fin 1)) = acc (ix2 r (0 : Fin 1)) + sumPZ (Zrow m c (rowOf t r)) (blkOf t) := by
  refine (pay1_apply (k0_pay5 (iblk m c 0 t) (iblk m c 1 t) (iblk m c 2 t) (iblk m c 3 t) (iblk m c 4 t))
    (k0_pay6 (iblk m c 0 t) (iblk m c 1 t) (iblk m c 2 t) (iblk m c 3 t) (iblk m c 4 t)) acc r).trans ?_
  refine congrArg (acc (ix2 r (0 : Fin 1)) + ·) ?_
  unfold sumPZ
  refine Finset.sum_congr rfl fun j _ => ?_
  rw [pay6_apply, logit_at m c t r j]
  rfl

/-- The accumulation at a block index given by an equation. -/
theorem accK_zero' (s : Fin 8 → EReal) (k : ℕ) (hk : k < 8) (h0 : k = 0) : accK s k hk = w0 + s ⟨k, hk⟩ := by
  subst h0; rfl
theorem accK_succ' (s : Fin 8 → EReal) (k k' : ℕ) (hk : k < 8) (hk' : k' < 8) (e : k' = k + 1) :
    accK s k' hk' = accK s k hk + s ⟨k', hk'⟩ := by
  subst e; rfl
theorem accK_congr (s : Fin 8 → EReal) (k k' : ℕ) (hk : k < 8) (hk' : k' < 8) (e : k = k') : accK s k hk = accK s k' hk' := by
  subst e; rfl

/-- The two accumulators after point n, at a row: the accumulations up to the point's column block. -/
theorem chain_at (c : Dev nD) (r : Fin 1024) : ∀ (n : ℕ) (h : n < cfg0.N),
    (chain m c n h).1 (ix2 r (0 : Fin 1)) = accK (sumP (Zrow m c (rowOf ⟨n, h⟩ r))) (n % 8) (Nat.mod_lt _ (by decide))
    ∧ (chain m c n h).2 (ix2 r (0 : Fin 1)) = accK (sumPZ (Zrow m c (rowOf ⟨n, h⟩ r))) (n % 8) (Nat.mod_lt _ (by decide))
  | 0, h => by
    constructor
    · show stepL m c ⟨0, h⟩ (k0_pay3 (F := Ideal)) (ix2 r (0 : Fin 1)) = _
      rw [stepL_at, pay3_apply]; rfl
    · show stepA m c ⟨0, h⟩ (k0_pay4 (F := Ideal)) (ix2 r (0 : Fin 1)) = _
      rw [stepA_at, pay4_apply]; rfl
  | n + 1, h => by
    have hN : cfg0.N = 64 := N_0
    by_cases h0 : (n + 1) % 8 = 0
    · rw [chain_succ_reset m c n h h0]
      constructor
      · show stepL m c ⟨n + 1, h⟩ (k0_pay3 (F := Ideal)) (ix2 r (0 : Fin 1)) = _
        rw [stepL_at, pay3_apply, accK_zero' _ _ _ h0]
      · show stepA m c ⟨n + 1, h⟩ (k0_pay4 (F := Ideal)) (ix2 r (0 : Fin 1)) = _
        rw [stepA_at, pay4_apply, accK_zero' _ _ _ h0]
    · rw [chain_succ_step m c n h h0]
      obtain ⟨ihL, ihA⟩ := chain_at c r n (Nat.lt_of_succ_lt h)
      have hrow : rowOf ⟨n + 1, h⟩ r = rowOf ⟨n, Nat.lt_of_succ_lt h⟩ r := Fin.ext (by
        show (n + 1) / 8 * 1024 + r.val = n / 8 * 1024 + r.val
        have : (n + 1) / 8 = n / 8 := by omega
        rw [this])
      have hk : (n + 1) % 8 = n % 8 + 1 := by omega
      constructor
      · show stepL m c ⟨n + 1, h⟩ (chain m c n _).1 (ix2 r (0 : Fin 1)) = _
        rw [stepL_at, ihL, hrow, accK_succ' _ (n % 8) ((n + 1) % 8) (Nat.mod_lt _ (by decide)) (Nat.mod_lt _ (by decide)) hk]
      · show stepA m c ⟨n + 1, h⟩ (chain m c n _).2 (ix2 r (0 : Fin 1)) = _
        rw [stepA_at, ihA, hrow, accK_succ' _ (n % 8) ((n + 1) % 8) (Nat.mod_lt _ (by decide)) (Nat.mod_lt _ (by decide)) hk]

/-- At a row block's last column block the output holds, at a row, the entropy of the row's logits. -/
theorem out_at (c : Dev nD) (t : Fin cfg0.N) (h7 : t.val % 8 = 7) (r : Fin 1024) :
    (outsAt0 m c t.val t.isLt).1 (ix2 r (0 : Fin 1)) = entK (Zrow m c (rowOf t r)) := by
  rw [outsAt_out m c t h7, pay2_apply]
  obtain ⟨hL, hA⟩ := chain_at m c r t.val t.isLt
  rw [hL, hA]
  unfold entK
  rw [accK_congr (sumP (Zrow m c (rowOf t r))) (t.val % 8) 7 (Nat.mod_lt _ (by decide)) (by omega) h7,
    accK_congr (sumPZ (Zrow m c (rowOf t r))) (t.val % 8) 7 (Nat.mod_lt _ (by decide)) (by omega) h7]

end Cert.KernelIdeal.KValue
end
-- ==== Proof.KRun.lean ====
import proofs.«123716_j58634893525570_2_alg».proof.Proof.KRows
import Idealize.ShloMosaic.Lib.Pipeline.Value
import Idealize.ShloMosaic.Lib.StableHlo.Run

set_option maxRecDepth 16384

/-
  The kernel's run, read. The output array of the launch ends holding, at row i, the entropy of row i's
  logits: the points of the last column block write back the row blocks, which tile the column. The
  host's operations after the launch then take the mean of that column and subtract the second term,
  computed from the centres alone.
-/
noncomputable section

open scoped BigOperators

namespace Cert.KernelIdeal.KValue

open Cert.KernelIdeal Cert.KernelIdeal.Gen Cert.Spec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The column of row entropies. -/
def entArr (c : Dev nD) : S8192x1.Idx → EReal := fun y => entK (Zrow m c ⟨(y 0).val, idx2_lt0 y⟩)

theorem entArr_apply (c : Dev nD) (i : Fin 8192) : entArr m c (ix2 i (0 : Fin 1)) = entK (Zrow m c i) := rfl

/-- The output block of a last-column-block point, at any of its rows. -/
theorem out_at' (c : Dev nD) (t : Fin cfg0.N) (h7 : t.val % 8 = 7) (y : S1024x1.Idx) :
    (outsAt0 m c t.val t.isLt).1 y = entK (Zrow m c (rowOf t ⟨(y 0).val, idx2_lt0 y⟩)) := by
  obtain ⟨r, u, rfl⟩ : ∃ (r : Fin 1024) (u : Fin 1), y = ix2 r u := ⟨y 0, y 1, eq_ix2 y⟩
  obtain rfl : u = 0 := Subsingleton.elim _ _
  exact out_at m c t h7 r

/-- What a last-column-block point writes back is its row block of the entropy column. -/
theorem flushed_eq (c : Dev nD) (t : Fin cfg0.N) (hf : (cfg0.win 5).flush t = true) :
    (dats m 0 c).flushed 5 t = ((cfg0.win 5).blk t).view.read (Elt Ideal) (entArr m c) := by
  have h7 : t.val % 8 = 7 := (flush0_5 t).mp hf
  have hi := idx5 t
  show (cfg0.win 5).cut (grid0.coords t) ((dats m 0 c).after 5 t) = _
  rw [after0_5]
  funext y
  show (outsAt0 m c t.val t.isLt).1 y = entArr m c (((cfg0.win 5).blk t).view.emb y)
  refine (out_at' m c t h7 y).trans ?_
  unfold entArr
  refine congrArg (fun i => entK (Zrow m c i)) (Fin.ext ?_)
  show (t.val / 8) * 1024 + (y 0).val = win0_5.index t 0 * 1024 + 1 * (y 0).val
  rw [hi.1]; omega

/-- An index of the column is in a point's block iff its coordinates are in the block's ranges. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v9).slice (win0_5.rect t)).set ↔ _
  rw [View.set_slice_whole, Rect.mem_set_unit]
  exact Iff.rfl

/-- Every row is in the block some last-column-block point writes back. -/
theorem cover (i : S8192x1.Idx) : ∃ t : Fin cfg0.N, (cfg0.win 5).flush t = true ∧ i ∈ ((cfg0.win 5).blk t).view.set := by
  have hN : cfg0.N = 64 := N_0
  have h0 : (i 0).val < 8192 := idx2_lt0 i
  have h1 : (i 1).val < 1 := idx2_lt1 i
  have hb : 8 * ((i 0).val / 1024) + 7 < cfg0.N := by omega
  have ht7 : (8 * ((i 0).val / 1024) + 7) % 8 = 7 := by omega
  have hi := idx5 ⟨8 * ((i 0).val / 1024) + 7, hb⟩
  refine ⟨⟨8 * ((i 0).val / 1024) + 7, hb⟩, (flush0_5 _).mpr ht7, ?_⟩
  rw [mem_blk5]
  intro a
  match a with
  | ⟨0, _⟩ =>
    show win0_5.index ⟨8 * ((i 0).val / 1024) + 7, hb⟩ 0 * 1024 ≤ (i 0).val ∧ (i 0).val < win0_5.index ⟨8 * ((i 0).val / 1024) + 7, hb⟩ 0 * 1024 + 1024
    rw [hi.1]
    show (8 * ((i 0).val / 1024) + 7) / 8 * 1024 ≤ (i 0).val ∧ (i 0).val < (8 * ((i 0).val / 1024) + 7) / 8 * 1024 + 1024
    have : (8 * ((i 0).val / 1024) + 7) / 8 = (i 0).val / 1024 := by omega
    rw [this]; omega
  | ⟨1, _⟩ =>
    show win0_5.index ⟨8 * ((i 0).val / 1024) + 7, hb⟩ 1 * 1 ≤ (i 1).val ∧ (i 1).val < win0_5.index ⟨8 * ((i 0).val / 1024) + 7, hb⟩ 1 * 1 + 1
    rw [hi.2]; omega

/-- So the output array ends holding the entropy column. -/
theorem final_o (c : Dev nD) : (dats m 0 c).arrAt 5 cfg0.N = entArr m c :=
  (dats m 0 c).arrAt_eq_of_cover 5 (entArr m c) (flushed_eq m c) cover

/-- The second term as the host computes it from the centres: the sum of the squared deviations from the
    column means, over the number of centres. -/
def ktail (M : S8192x128.Idx → EReal) : S_.Idx → EReal :=
  Host.divf (Host.reduceAdd (mulf (subf M (broadcastInDim S8192x128 ![0, 1] bcast_S1x128_S8192x128_0_1 (Host.divf (broadcastInDim S1x128 ![1] bcast_S128_S1x128_1 (Host.reduceAdd M (constant (F := Ideal) S_ .f32 0x00000000#32) reducesTo_S8192x128_S128_d0 h_S_)) (broadcastInDim S1x128 ![] bcast_S_S1x128 (constant (F := Ideal) S_ .f32 0x46000000#32))))) (subf M (broadcastInDim S8192x128 ![0, 1] bcast_S1x128_S8192x128_0_1 (Host.divf (broadcastInDim S1x128 ![1] bcast_S128_S1x128_1 (Host.reduceAdd M (constant (F := Ideal) S_ .f32 0x00000000#32) reducesTo_S8192x128_S128_d0 h_S_)) (broadcastInDim S1x128 ![] bcast_S_S1x128 (constant (F := Ideal) S_ .f32 0x46000000#32)))))) (constant (F := Ideal) S_ .f32 0x00000000#32) reducesTo_S8192x128_S_d0_1 h_S_) (constant (F := Ideal) S_ .f32 0x46000000#32)

/-- The result: the mean of the entropy column minus the second term. -/
def kresult (c : Dev nD) : Buf (Elt Ideal) ((c.tc : Thread nD τ).loc main_v21) :=
  subf (Host.divf (Host.reduceAdd (entArr m c) (constant (F := Ideal) S_ .f32 0x00000000#32) reducesTo_S8192x1_S_d0_1 h_S_) (constant (F := Ideal) S_ .f32 0x46000000#32)) (ktail (argM m c))

/-- The host's operations after the launch compute it from the output array and the centres. -/
theorem tail_eq (c : Dev nD) : Pipeline.afterTail₀ cfgs (dats m) 0 (V0 m) [hostOps1] c main_v21 = kresult m c := by
  have e9 : Pipeline.withArrays (cfgs 0).spec c (V0 m c) (fun w => (dats m 0 c).arrAt w (cfgs 0).N) (Proc.devRef .tc main_v9) = entArr m c :=
    (Pipeline.withArrays_arr spec0 launch0.win.arr_inj c _ _ 5).trans (final_o m c)
  have e1 : Pipeline.withArrays (cfgs 0).spec c (V0 m c) (fun w => (dats m 0 c).arrAt w (cfgs 0).N) (Proc.devRef .tc main_arg1) = argM m c :=
    (Pipeline.withArrays_arr spec0 launch0.win.arr_inj c _ _ 1).trans (((dats m 0 c).arrAt_in 1 rfl _).trans ((A_eq m c 1).trans (V_main_arg1 m c)))
  unfold Pipeline.afterTail₀
  show StableHlo.after hostOps1 _ (Proc.devRef .tc main_v21) = _
  after_results
  rw [e9, e1]
  rfl

/-- The run, read: the result buffer at `kresult`, the three arguments unchanged. -/
theorem run : θ_run defs (onTc (τ := τ) (main (F := Ideal))) ⟨m, fun _ => 0, ρ⟩ fun r => ∀ c : Dev nD,
      r.2.mem ((c.tc : Thread nD τ).loc main_v21) = kresult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue
end
-- ==== Proof.KFinal.lean ====
import proofs.«123716_j58634893525570_2_alg».proof.Proof.KRun
import proofs.«123716_j58634893525570_2_alg».proof.Proof.RefRead

set_option maxRecDepth 16384

/-
  The kernel's result in the specification's terms: the host's mean of the entropy column is the
  specification's mean over the rows, and the second term is, operation for operation, the reference's.
-/
noncomputable section

open scoped BigOperators

namespace Cert.KernelIdeal.KValue

open Cert.KernelIdeal Cert.KernelIdeal.Gen Cert.Spec
open Idealize.ShloMosaic Idealize.ShloMosaic.TcCoe Idealize.SL.Sem Idealize.ShloMosaic.ValueIdx

variable (m : (ℓ : Loc nD τ sig) → Buf (Elt Ideal) ℓ)

/-- A sum over the index set of a column is the sum over its rows. -/
theorem sum_col1 (f : S8192x1.Idx → EReal) : ∑ y, f y = ∑ i : Fin 8192, f (ix2 i (0 : Fin 1)) := by
  rw [sum_idx2]
  exact Finset.sum_congr rfl fun a _ => Fin.sum_univ_one _

/-- The second term is the reference's second term, the same operations on the same array. -/
theorem ktail_eq (M : S8192x128.Idx → EReal) : ktail M = Cert.ReferenceIdeal.ReadP.val_main_v36 (F := Ideal) M := by
  unfold ktail Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_cst_6 Cert.ReferenceIdeal.ReadP.val_main_cst_7 Cert.ReferenceIdeal.ReadP.val_main_cst_8 Cert.ReferenceIdeal.ReadP.val_main_cst_9
  rfl

/-- The result is the specification's final scalar of the row entropies and the reference's second term. -/
theorem kresult_eq (c : Dev nD) :
    (kresult m c : (⟨0, ![]⟩ : Shape).Idx → EReal)
      = fun _ => final (fun i => entK (fun k => logitK (m ((c.tc : Thread nD τ).loc main_arg0)) (m ((c.tc : Thread nD τ).loc main_arg1)) (m ((c.tc : Thread nD τ).loc main_arg2)) i k))
          (Cert.ReferenceIdeal.ReadP.val_main_v36 (F := Ideal) (m ((c.tc : Thread nD τ).loc main_arg1)) ix0) := by
  funext j
  obtain rfl : j = ix0 := eq_ix0 j
  have hs : Host.reduceAdd (entArr m c) (constant (F := Ideal) S_ .f32 0x00000000#32) reducesTo_S8192x1_S_d0_1 h_S_ ix0
      = w0 + ∑ i : Fin 8192, entK (Zrow m c i) := by
    simp only [Host.reduceAdd, Ideal.hostReduceAdd_def]
    rw [Ideal.hostReduceAdd_total reducesTo_S8192x1_S_d0_1 (fun b => b.elim0), sum_col1]
    rfl
  show Ideal.div (Host.reduceAdd (entArr m c) (constant (F := Ideal) S_ .f32 0x00000000#32) reducesTo_S8192x1_S_d0_1 h_S_ ix0) wN - ktail (argM m c) ix0 = _
  rw [hs, ktail_eq]
  rfl

end Cert.KernelIdeal.KValue
end
-- ==== Proof.RefValue.lean ====
/-
  The reference program's stages, read at an index on the extended reals, are the specification's quantities:
  the logits stage is the quotient spelling of the logit; the row stage is the log-softmax entropy of the
  row's logits, shifted by the row's maximum, which is a real when every logit of the row is; the result is
  the mean of the row values minus the second term.
-/
import proofs.«123716_j58634893525570_2_alg».proof.Proof.RefRead
import proofs.«123716_j58634893525570_2_alg».proof.Proof.Spec

noncomputable section

open scoped BigOperators

namespace Cert.ReferenceIdeal.RefValue

open Cert.ReferenceIdeal Cert.ReferenceIdeal.Gen Cert.ReferenceIdeal.ReadP Cert.Spec Idealize.ShloMosaic
  Idealize.ShloMosaic.ValueIdx

/-! ### The index maps of the broadcasts, sums and the contraction, at explicit coordinates -/

theorem e_sqnX (i k : Fin 8192) (d : Fin 128) :
    idx_main_v1 (idx_main_v2 (idx_main_v6 (ix2 i k))) d = ix2 i d :=
  funext fun a => Fin.ext (by match a with | ⟨0, _⟩ => rfl | ⟨1, _⟩ => rfl)

theorem e_sqnM (i k : Fin 8192) (d : Fin 128) :
    idx_main_v4 (idx_main_v5 (idx_main_v7 (ix2 i k))) d = ix2 k d :=
  funext fun a => Fin.ext (by match a with | ⟨0, _⟩ => rfl | ⟨1, _⟩ => rfl)

theorem e_dotL (i k : Fin 8192) (d : Fin 128) : lidx_main_v10 (ix2 i k) d = ix2 i d :=
  funext fun a => Fin.ext (by match a with | ⟨0, _⟩ => rfl | ⟨1, _⟩ => rfl)

theorem e_dotR (i k : Fin 8192) (d : Fin 128) : idx_main_v9 (ridx_main_v10 (ix2 i k) d) = ix2 k d :=
  funext fun a => Fin.ext (by match a with | ⟨0, _⟩ => rfl | ⟨1, _⟩ => rfl)

theorem e_scale (i k : Fin 8192) : idx_main_v18 (idx_main_v19 (ix2 i k)) = ix1 k :=
  funext fun a => Fin.ext (by match a with | ⟨0, _⟩ => rfl)

theorem e_rowOfCol (i k : Fin 8192) : idx_main_call0_v3 (idx_main_call0_v4 (ix2 i k)) = ix1 i :=
  funext fun a => Fin.ext (by match a with | ⟨0, _⟩ => rfl)

theorem e_rowOfCol' (i k : Fin 8192) : idx_main_call0_v8 (idx_main_call0_v10 (ix2 i k)) = ix1 i :=
  funext fun a => Fin.ext (by match a with | ⟨0, _⟩ => rfl)

theorem e_sumExp (i k : Fin 8192) : idx_main_call0_v7 (ix1 i) k = ix2 i k :=
  funext fun a => Fin.ext (by match a with | ⟨0, _⟩ => rfl | ⟨1, _⟩ => rfl)

theorem e_sumEnt (i k : Fin 8192) : idx_main_v25 (ix1 i) k = ix2 i k :=
  funext fun a => Fin.ext (by match a with | ⟨0, _⟩ => rfl | ⟨1, _⟩ => rfl)

/-! ### The distance and the logits -/

variable (X M : (⟨S8192x128, .f32⟩ : BufTy).Contents (Elt Ideal)) (S : (⟨S8192, .f32⟩ : BufTy).Contents (Elt Ideal))

/-- The broadcast squared norms of the points, at (i, k), are the squared norm of point i. -/
theorem sqnX_apply (i k : Fin 8192) : val_main_v6 (F := Ideal) X (ix2 i k) = sqn X i := by
  rw [val_main_v6_apply, val_main_v2_apply, val_main_v1_apply]
  show _ = w0 + ∑ d : Fin 128, X (ix2 i d) * X (ix2 i d)
  refine congrArg (_ + ·) (Finset.sum_congr rfl fun d _ => ?_)
  rw [e_sqnX]
  rfl

/-- The broadcast squared norms of the centres, at (i, k), are the squared norm of centre k. -/
theorem sqnM_apply (i k : Fin 8192) : val_main_v7 (F := Ideal) M (ix2 i k) = sqn M k := by
  rw [val_main_v7_apply, val_main_v5_apply, val_main_v4_apply]
  show _ = w0 + ∑ d : Fin 128, M (ix2 k d) * M (ix2 k d)
  refine congrArg (_ + ·) (Finset.sum_congr rfl fun d _ => ?_)
  rw [e_sqnM]
  rfl

/-- The contraction at (i, k) is the dot product of point i and centre k. -/
theorem dot_apply (i k : Fin 8192) : val_main_v10 (F := Ideal) X M (ix2 i k) = dotp X M i k := by
  rw [val_main_v10_apply]
  show _ = ∑ d : Fin 128, X (ix2 i d) * M (ix2 k d)
  refine Finset.sum_congr rfl fun d _ => ?_
  rw [val_main_v9_apply, e_dotL, e_dotR]

/-- The square-root stage at (i, k) is the clamped distance. -/
theorem dist_apply (i k : Fin 8192) : val_main_v16 (F := Ideal) X M (ix2 i k) = Cert.Spec.dist X M i k := by
  rw [val_main_v16_apply, val_main_v15_apply, val_main_v13_apply, val_main_v8_apply, val_main_v12_apply,
    sqnX_apply, sqnM_apply, dot_apply]
  rfl

/-- The logits stage main_v20 at (i, k) is the quotient spelling of the specification. -/
theorem logits_apply (i k : Fin 8192) :
    val_main_v20 (F := Ideal) X M S (ix2 i k) = Cert.Spec.logitR X M S i k := by
  rw [val_main_v20_apply, val_main_v17_apply, val_main_v19_apply, val_main_v18_apply, dist_apply, e_scale]
  rfl

/-! ### The row maximum is a real -/

/-- The word `0xFF800000` denotes the bottom of the extended reals. -/
theorem negInf_eq : Ideal.ofBits .f32 0xFF800000#32 = (⊥ : EReal) := by
  simp [Ideal.ofBits, Ideal.ieee]

/-- A maximum, started from bottom, over a nonempty finite family of reals is a real. -/
theorem fold_max_real {ι : Type*} (s : Finset ι) (f : ι → EReal) (hf : ∀ k ∈ s, ∃ r : ℝ, f k = (r : EReal)) :
    s.Nonempty → ∃ r : ℝ, s.fold max (⊥ : EReal) f = (r : EReal) := by
  classical
  refine Finset.induction_on s (fun _ h => absurd h Finset.not_nonempty_empty) ?_ hf
  intro a s ha ih hf' _
  obtain ⟨ra, hra⟩ := hf' a (Finset.mem_insert_self a s)
  rw [Finset.fold_insert ha, hra]
  rcases s.eq_empty_or_nonempty with rfl | hne
  · exact ⟨ra, by rw [Finset.fold_empty]; exact max_eq_left bot_le⟩
  · obtain ⟨r, hr⟩ := ih (fun k hk => hf' k (Finset.mem_insert_of_mem hk)) hne
    exact ⟨max ra r, by rw [hr]; exact (EReal.coe_strictMono.monotone.map_max).symm⟩

/-- The shape fact naming the inserted column of a row. -/
theorem red_cols : S8192x8192.Reduces [1] S8192 := by decide

/-- Row i with column k put back is (i, k). -/
theorem lift_row (i : Fin 8192) (k : Fin (S8192x8192.size 1)) :
    red_cols.lift (ix1 i) k = ix2 i (⟨k.val, k.isLt⟩ : Fin 8192) :=
  funext fun a => Fin.ext (by match a with | ⟨0, _⟩ => rfl | ⟨1, _⟩ => rfl)

/-- When every logit of row i is a real, the row's maximum (taken from bottom, then once more against bottom) is a real. -/
theorem rowmax_real (hZ : ∀ i k : Fin 8192, ∃ r : ℝ, Cert.Spec.logitR X M S i k = (r : EReal)) (i : Fin 8192) :
    ∃ mx : ℝ, val_main_call0_v2 (F := Ideal) X M S (ix1 i) = (mx : EReal) := by
  have hfold : ∃ r : ℝ, val_main_call0_v0 (F := Ideal) X M S (ix1 i) = (r : EReal) := by
    unfold val_main_call0_v0
    rw [Host.reduce_eq_fold_single (FloatOps.maximumf (F := Ideal) (φ := .f32))
      (val_main_v20 (F := Ideal) X M S : S8192x8192.Idx → Ideal .f32) _
      reducesTo_S8192x8192_S8192_d1 red_cols h_S_ (ix1 i)]
    have hinit : val_main_call0_cst (F := Ideal) (Shape.Idx.first h_S_) = (⊥ : EReal) := negInf_eq
    rw [hinit]
    refine fold_max_real Finset.univ _ (fun k _ => ?_) ⟨⟨0, by decide⟩, Finset.mem_univ _⟩
    show ∃ r : ℝ, val_main_v20 (F := Ideal) X M S (red_cols.lift (ix1 i) k) = (r : EReal)
    rw [lift_row, logits_apply]
    exact hZ i _
  obtain ⟨r, hr⟩ := hfold
  refine ⟨r, ?_⟩
  rw [val_main_call0_v2_apply, hr, val_main_call0_v1_apply]
  have hb : val_main_call0_cst_0 (F := Ideal) (idx_main_call0_v1 (ix1 i)) = (⊥ : EReal) := negInf_eq
  rw [hb]
  exact max_eq_right bot_le

/-! ### The log-softmax and the row entropies -/

/-- The shifted logits at (i, k): the logit minus the row's maximum. -/
theorem shifted_apply (i k : Fin 8192) :
    val_main_call0_v5 (F := Ideal) X M S (ix2 i k)
      = Cert.Spec.logitR X M S i k - val_main_call0_v2 (F := Ideal) X M S (ix1 i) := by
  rw [val_main_call0_v5_apply, logits_apply, val_main_call0_v4_apply, val_main_call0_v3_apply, e_rowOfCol]
  rfl

/-- The row sums of the exponentials of the shifted logits. -/
theorem sumExp_apply (i : Fin 8192) :
    val_main_call0_v7 (F := Ideal) X M S (ix1 i)
      = w0 + ∑ k : Fin 8192, Ideal.exp (Cert.Spec.logitR X M S i k - val_main_call0_v2 (F := Ideal) X M S (ix1 i)) := by
  rw [val_main_call0_v7_apply]
  refine congrArg (_ + ·) (Finset.sum_congr rfl fun k _ => ?_)
  rw [e_sumExp, val_main_call0_v6_apply, shifted_apply]
  rfl

/-- The broadcast log of the row sums at (i, k): the shifted log-sum-exp of row i. -/
theorem lse_apply (i k : Fin 8192) :
    val_main_call0_v10 (F := Ideal) X M S (ix2 i k)
      = lseR (fun k => Cert.Spec.logitR X M S i k) (val_main_call0_v2 (F := Ideal) X M S (ix1 i)) := by
  rw [val_main_call0_v10_apply, val_main_call0_v9_apply, val_main_call0_v8_apply, e_rowOfCol', sumExp_apply]
  rfl

/-- The log-softmax at (i, k). -/
theorem logsm_apply (i k : Fin 8192) :
    val_main_v21 (F := Ideal) X M S (ix2 i k)
      = (Cert.Spec.logitR X M S i k - val_main_call0_v2 (F := Ideal) X M S (ix1 i))
        - lseR (fun k => Cert.Spec.logitR X M S i k) (val_main_call0_v2 (F := Ideal) X M S (ix1 i)) := by
  rw [val_main_v21_apply, shifted_apply, lse_apply]
  rfl

/-- The row stage at row i is the log-softmax entropy of the row's logits, shifted by the row's maximum. -/
theorem rows_eq (i : Fin 8192) :
    val_main_v25 (F := Ideal) X M S (ix1 i)
      = entR (fun k => Cert.Spec.logitR X M S i k) (val_main_call0_v2 (F := Ideal) X M S (ix1 i)) := by
  rw [val_main_v25_apply]
  refine congrArg (_ + ·) (Finset.sum_congr rfl fun k _ => ?_)
  rw [e_sumEnt, val_main_v24_apply, val_main_v23_apply, val_main_v22_apply, logsm_apply]
  rfl

/-- The row entropies stage main_v25 at row i, when every logit is a real: the specification's entR of the row's
    logits, at some real shift (the row maximum). -/
theorem rows_apply (hZ : ∀ i k : Fin 8192, ∃ r : ℝ, Cert.Spec.logitR X M S i k = (r : EReal)) (i : Fin 8192) :
    ∃ mx : ℝ, val_main_v25 (F := Ideal) X M S (ix1 i)
      = Cert.Spec.entR (fun k => Cert.Spec.logitR X M S i k) (mx : EReal) := by
  obtain ⟨mx, hmx⟩ := rowmax_real X M S hZ i
  exact ⟨mx, by rw [rows_eq, hmx]⟩

/-! ### The result -/

/-- A sum over the one-axis index set is the sum over its coordinate. -/
theorem sum_idx1 {A : Type*} [AddCommMonoid A] (f : (⟨1, ![8192]⟩ : Shape).Idx → A) :
    ∑ j, f j = ∑ i : Fin 8192, f (ix1 i) := by
  let e : Fin 8192 ≃ (⟨1, ![8192]⟩ : Shape).Idx :=
    { toFun := fun i => ix1 i, invFun := fun j => j 0, left_inv := fun _ => rfl, right_inv := fun j => (eq_ix1 j).symm }
  exact (Fintype.sum_equiv e (fun i => f (ix1 i)) f (fun _ => rfl)).symm

/-- The result main_v37 at its one index: the mean of the row entropies minus the second term. -/
theorem result_apply :
    val_main_v37 (F := Ideal) X M S ix0
      = Cert.Spec.final (fun i => val_main_v25 (F := Ideal) X M S (ix1 i)) (val_main_v36 (F := Ideal) M ix0) := by
  rw [val_main_v37_apply, val_main_v27_apply, val_main_v26_apply, sum_idx1]
  rfl

end Cert.ReferenceIdeal.RefValue

end
-- ==== Proof.EntropyMath.lean ====
/-
  The two agreements the certificate rests on, as statements about extended reals.

  (1) With real entries and a nonzero real scale, the logit written as a product with the reciprocal
      of the scale and the logit written as a quotient by the scale are one and the same real.
  (2) For real logits z, the entropy of softmax z computed as  log L - A / L  with  L = Σ exp z,
      A = Σ exp z * z  (both accumulated over eight blocks of 1024 columns) equals the entropy computed
      as  Σ -p * log p  over the log-softmax of z shifted by any real number.
-/
import proofs.«123716_j58634893525570_2_alg».proof.Proof.Spec
import Idealize.ShloMosaic.Lib.IdealHost
import Mathlib.Analysis.SpecialFunctions.Log.Basic
import Mathlib.Tactic

noncomputable section

open scoped BigOperators

namespace Cert.Spec

open Idealize.ShloMosaic Idealize.ShloMosaic.ValueIdx

/-! ### The entropy identity over the reals -/

section RealEntropy

variable {ι : Type*} [Fintype ι]

/-- Shifting every logit by `mx` divides the sum of exponentials by `exp mx`. -/
theorem sum_exp_shift (z : ι → ℝ) (mx : ℝ) :
    ∑ k, Real.exp (z k - mx) = (∑ k, Real.exp (z k)) / Real.exp mx := by
  simp_rw [Real.exp_sub]
  rw [Finset.sum_div]

/-- Hence the log of the shifted sum is the log of the sum, minus the shift. -/
theorem log_sum_exp_shift (z : ι → ℝ) (mx : ℝ) (hL : 0 < ∑ k, Real.exp (z k)) :
    Real.log (∑ k, Real.exp (z k - mx)) = Real.log (∑ k, Real.exp (z k)) - mx := by
  rw [sum_exp_shift, Real.log_div hL.ne' (Real.exp_ne_zero mx), Real.log_exp]

/-- The entropy of a softmax, from its log-probabilities `z k - log L`: it is `log L - A / L`. -/
theorem entropy_of_logprob (z : ι → ℝ) (hL : 0 < ∑ k, Real.exp (z k)) :
    ∑ k, (-(Real.exp (z k - Real.log (∑ k, Real.exp (z k))))) * (z k - Real.log (∑ k, Real.exp (z k)))
      = Real.log (∑ k, Real.exp (z k)) - (∑ k, Real.exp (z k) * z k) / (∑ k, Real.exp (z k)) := by
  set L := ∑ k, Real.exp (z k) with hLdef
  have hterm : ∀ k, (-(Real.exp (z k - Real.log L))) * (z k - Real.log L)
      = Real.exp (z k) * (Real.log L / L) - (Real.exp (z k) * z k) / L := by
    intro k
    rw [Real.exp_sub, Real.exp_log hL]
    ring
  simp_rw [hterm]
  rw [Finset.sum_sub_distrib, ← Finset.sum_mul, ← Finset.sum_div, ← hLdef]
  congr 1
  field_simp

/-- The same entropy from the log-softmax of the logits shifted by any real `mx`. -/
theorem entropy_shift (z : ι → ℝ) (mx : ℝ) (hL : 0 < ∑ k, Real.exp (z k)) :
    ∑ k, (-(Real.exp ((z k - mx) - Real.log (∑ k, Real.exp (z k - mx)))))
          * ((z k - mx) - Real.log (∑ k, Real.exp (z k - mx)))
      = Real.log (∑ k, Real.exp (z k)) - (∑ k, Real.exp (z k) * z k) / (∑ k, Real.exp (z k)) := by
  rw [log_sum_exp_shift z mx hL]
  have hsh : ∀ k, (z k - mx) - (Real.log (∑ k, Real.exp (z k)) - mx) = z k - Real.log (∑ k, Real.exp (z k)) := by
    intro k; ring
  simp_rw [hsh]
  exact entropy_of_logprob z hL

end RealEntropy

/-! ### Coercions of finite sums, the block regrouping, and the block accumulator -/

/-- The zero and one literals denote zero and one. -/
theorem w0_eq : w0 = 0 := Ideal.ofBits_zero_f32
theorem w1_eq : w1 = 1 := Ideal.ofBits_one_f32

/-- The coercion of a finite real sum is the sum of the coercions. -/
@[simp, norm_cast] theorem coe_sum {ι : Type*} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- Block and offset make up the column: `(b, j) ↦ b * 1024 + j` is a bijection onto the 8192 columns. -/
def colEquiv : Fin 8 × Fin 1024 ≃ Fin 8192 where
  toFun p := col p.1 p.2
  invFun k := (⟨k.val / 1024, by have := k.isLt; omega⟩, ⟨k.val % 1024, by omega⟩)
  left_inv p := by
    obtain ⟨b, j⟩ := p
    have hb := b.isLt
    have hj := j.isLt
    ext <;> simp only [col] <;> omega
  right_inv k := by
    have hk := k.isLt
    ext
    simp only [col]
    omega

/-- A sum over the 8192 columns is the sum over the eight blocks of the sums over each block's 1024 columns. -/
theorem sum_col {M : Type*} [AddCommMonoid M] (f : Fin 8192 → M) :
    ∑ k, f k = ∑ b : Fin 8, ∑ j : Fin 1024, f (col b j) := by
  rw [← Fintype.sum_prod_type' (fun b j => f (col b j))]
  exact (Fintype.sum_equiv colEquiv (fun p => f (col p.1 p.2)) f (fun _ => rfl)).symm

/-- The accumulator written out: the zero literal, then the eight block values in order. -/
theorem accK_eq (s : Fin 8 → EReal) (h : 7 < 8) :
    accK s 7 h = w0 + s 0 + s 1 + s 2 + s 3 + s 4 + s 5 + s 6 + s 7 := rfl

/-- On real block values the accumulator is the coercion of their total. -/
theorem accK_coe (t : Fin 8 → ℝ) (h : 7 < 8) :
    accK (fun b => (t b : EReal)) 7 h = ((∑ b : Fin 8, t b : ℝ) : EReal) := by
  rw [accK_eq, Fin.sum_univ_eight, w0_eq, zero_add]
  simp only [EReal.coe_add]

/-- One block's sum of exponentials, on real logits. -/
theorem sumP_coe (z : Fin 8192 → ℝ) (b : Fin 8) :
    sumP (fun k => (z k : EReal)) b = ((∑ j : Fin 1024, Real.exp (z (col b j)) : ℝ) : EReal) := by
  simp only [sumP, coe_sum, Ideal.exp_coe]

/-- One block's sum of exponentials times logits, on real logits. -/
theorem sumPZ_coe (z : Fin 8192 → ℝ) (b : Fin 8) :
    sumPZ (fun k => (z k : EReal)) b
      = ((∑ j : Fin 1024, Real.exp (z (col b j)) * z (col b j) : ℝ) : EReal) := by
  simp only [sumPZ, coe_sum, Ideal.exp_coe, EReal.coe_mul]

/-- The accumulated sum of exponentials is the coercion of `L = Σ exp z`. -/
theorem accK_sumP (z : Fin 8192 → ℝ) (h : 7 < 8) :
    accK (sumP (fun k => (z k : EReal))) 7 h = ((∑ k, Real.exp (z k) : ℝ) : EReal) := by
  rw [show sumP (fun k => (z k : EReal)) = fun b => ((∑ j : Fin 1024, Real.exp (z (col b j)) : ℝ) : EReal)
        from funext (sumP_coe z), accK_coe, sum_col]

/-- The accumulated sum of exponentials times logits is the coercion of `A = Σ exp z * z`. -/
theorem accK_sumPZ (z : Fin 8192 → ℝ) (h : 7 < 8) :
    accK (sumPZ (fun k => (z k : EReal))) 7 h = ((∑ k, Real.exp (z k) * z k : ℝ) : EReal) := by
  rw [show sumPZ (fun k => (z k : EReal))
        = fun b => ((∑ j : Fin 1024, Real.exp (z (col b j)) * z (col b j) : ℝ) : EReal)
        from funext (sumPZ_coe z), accK_coe, sum_col (fun k => Real.exp (z k) * z k)]

/-- The sum of exponentials of 8192 reals is positive. -/
theorem sum_exp_pos (z : Fin 8192 → ℝ) : 0 < ∑ k, Real.exp (z k) :=
  Finset.sum_pos (fun k _ => Real.exp_pos _) ⟨⟨0, by norm_num⟩, Finset.mem_univ _⟩

/-! ### The two entropies on real logits -/

/-- The block-accumulated entropy is the coercion of `log L - A / L`. -/
theorem entK_coe (z : Fin 8192 → ℝ) :
    entK (fun k => (z k : EReal))
      = ((Real.log (∑ k, Real.exp (z k)) - (∑ k, Real.exp (z k) * z k) / (∑ k, Real.exp (z k)) : ℝ) : EReal) := by
  have hL := sum_exp_pos z
  rw [entK, accK_sumP, accK_sumPZ, Ideal.log_coe, if_neg (not_le.mpr hL), Ideal.div_coe hL.ne',
    ← EReal.coe_mul, ← EReal.coe_sub, mul_one_div]

/-- The shifted log-sum-exp on real logits. -/
theorem lseR_coe (z : Fin 8192 → ℝ) (mx : ℝ) :
    lseR (fun k => (z k : EReal)) (mx : EReal) = ((Real.log (∑ k, Real.exp (z k - mx)) : ℝ) : EReal) := by
  have hS : 0 < ∑ k, Real.exp (z k - mx) := sum_exp_pos (fun k => z k - mx)
  have hsum : (w0 + ∑ k : Fin 8192, Ideal.exp ((z k : EReal) - (mx : EReal)))
      = ((∑ k, Real.exp (z k - mx) : ℝ) : EReal) := by
    rw [w0_eq, zero_add]
    simp only [coe_sum, ← EReal.coe_sub, Ideal.exp_coe]
  rw [lseR, hsum, Ideal.log_coe, if_neg (not_le.mpr hS)]

/-- The log-softmax entropy on real logits is the coercion of the real sum of `-p * log p`. -/
theorem entR_coe (z : Fin 8192 → ℝ) (mx : ℝ) :
    entR (fun k => (z k : EReal)) (mx : EReal)
      = ((∑ k, (-(Real.exp ((z k - mx) - Real.log (∑ k, Real.exp (z k - mx)))))
              * ((z k - mx) - Real.log (∑ k, Real.exp (z k - mx))) : ℝ) : EReal) := by
  rw [entR, lseR_coe, w0_eq, zero_add]
  simp only [coe_sum, ← EReal.coe_sub, Ideal.exp_coe, ← EReal.coe_neg, ← EReal.coe_mul]

/-- The two arrangements of a row's entropy agree on real logits, whatever the real shift. -/
theorem ent_agree (Z : Fin 8192 → EReal) (hZ : ∀ k, ∃ r : ℝ, Z k = (r : EReal)) (mx : ℝ) :
    entK Z = entR Z (mx : EReal) := by
  choose z hz using hZ
  obtain rfl : Z = fun k => (z k : EReal) := funext hz
  rw [entK_coe, entR_coe, entropy_shift z mx (sum_exp_pos z)]

/-! ### The logit in its two spellings -/

/-- The word `0x40000000` denotes the real two. -/
theorem w2_coe : w2 = ((2 : ℝ) : EReal) := by
  simp [Ideal.ofBits, Ideal.ieee, -EReal.coe_mul]; norm_num

/-- The squared norm of a row of reals is a real. -/
theorem sqn_coe (a : SX.Idx → ℝ) (i : Fin 8192) :
    sqn (fun j => (a j : EReal)) i = ((∑ d : Fin 128, a (ix2 i d) * a (ix2 i d) : ℝ) : EReal) := by
  rw [sqn, w0_eq, zero_add]
  simp only [coe_sum, EReal.coe_mul]

/-- The dot product of two rows of reals is a real. -/
theorem dotp_coe (x m : SX.Idx → ℝ) (i k : Fin 8192) :
    dotp (fun j => (x j : EReal)) (fun j => (m j : EReal)) i k
      = ((∑ d : Fin 128, x (ix2 i d) * m (ix2 k d) : ℝ) : EReal) := by
  simp only [dotp, coe_sum, EReal.coe_mul]

/-- The square root of a real clamped below at zero is a real: the negative branch is not taken. -/
theorem sqrt_max_coe (r : ℝ) :
    Ideal.sqrt (max (r : EReal) w0) = ((Real.sqrt (max r 0) : ℝ) : EReal) := by
  rw [w0_eq, ← EReal.coe_zero, ← EReal.coe_strictMono.monotone.map_max, Ideal.sqrt_coe,
    if_neg (not_lt.mpr (le_max_right r 0))]

/-- The distance between a point and a centre with real coordinates is a real. -/
theorem dist_coe (x m : SX.Idx → ℝ) (i k : Fin 8192) :
    ∃ d : ℝ, dist (fun j => (x j : EReal)) (fun j => (m j : EReal)) i k = (d : EReal) := by
  refine ⟨Real.sqrt (max ((∑ d : Fin 128, x (ix2 i d) * x (ix2 i d) + ∑ d : Fin 128, m (ix2 k d) * m (ix2 k d))
      - 2 * ∑ d : Fin 128, x (ix2 i d) * m (ix2 k d)) 0), ?_⟩
  rw [dist, sqn_coe, sqn_coe, dotp_coe, w2_coe, ← EReal.coe_add, ← EReal.coe_mul, ← EReal.coe_sub, sqrt_max_coe]

/-- With real entries and a nonzero real scale the two spellings of the logit are one real. -/
theorem logit_agree (X M : SX.Idx → EReal) (S : SS.Idx → EReal)
    (hX : ∀ j, ∃ r : ℝ, X j = (r : EReal)) (hM : ∀ j, ∃ r : ℝ, M j = (r : EReal))
    (hS : ∀ j, ∃ r : ℝ, r ≠ 0 ∧ S j = (r : EReal)) (i k : Fin 8192) :
    ∃ z : ℝ, logitK X M S i k = (z : EReal) ∧ logitR X M S i k = (z : EReal) := by
  choose x hx using hX
  choose m hm using hM
  obtain rfl : X = fun j => (x j : EReal) := funext hx
  obtain rfl : M = fun j => (m j : EReal) := funext hm
  obtain ⟨s, hs0, hs⟩ := hS (ix1 k)
  obtain ⟨d, hd⟩ := dist_coe x m i k
  refine ⟨-d * (1 / s), ?_, ?_⟩
  · rw [logitK, hd, hs, Ideal.div_coe hs0, w0_eq, w1_eq, zero_sub, one_mul,
      ← EReal.coe_neg, ← EReal.coe_mul]
  · rw [logitR, hd, hs, Ideal.div_coe hs0, ← EReal.coe_neg, ← EReal.coe_mul]

end Cert.Spec

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.PreDecode.lean ====
/-
  The precondition read back: when the predicate "every entry of the three arrays has absolute value below
  +infinity, and every entry of the scale vector differs from zero" holds, every entry of the two point arrays is a
  real and every entry of the scale vector is a nonzero real.
-/
import proofs.«123716_j58634893525570_2_alg».proof.Pre_finite_inputs
import proofs.«123716_j58634893525570_2_alg».proof.Proof.LibRealEntries
import Idealize.ShloMosaic.Lib.ReduceAll
import Idealize.ShloMosaic.Lib.ValueIdx
import Idealize.ShloMosaic.PureOps.Ideal.Laws

noncomputable section

namespace Cert.PreDecode

open Idealize.ShloMosaic Cert.RealEntries

/-- An extended real that compares different from the zero word is not zero. -/
theorem ne_zero_of_cmp (z : EReal) (h : Ideal.cmp .une z (Ideal.ofBits .f32 0x00000000#32) = 1#1) : z ≠ 0 := by
  intro hz
  rw [hz, Ideal.ofBits_zero_f32] at h
  simp [Ideal.cmp] at h

/-- The predicate gives: the entries of both point arrays are reals, those of the scale vector nonzero reals. -/
theorem real_of_pre [Cert.Pre_finite_inputs.Facts]
    (X M : FVec Ideal Cert.Pre_finite_inputs.S8192x128 .f32) (S : FVec Ideal Cert.Pre_finite_inputs.S8192 .f32)
    (h : Cert.Pre_finite_inputs.fn (F := Ideal) X M S = fun _ => 1#1) :
    (∀ j, ∃ r : ℝ, X j = (r : EReal)) ∧ (∀ j, ∃ r : ℝ, M j = (r : EReal)) ∧ (∀ j, ∃ r : ℝ, r ≠ 0 ∧ S j = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨allReal_of_reduce _ _ _ _ X _ ValueIdx.ix0 h1, allReal_of_reduce _ _ _ _ M _ ValueIdx.ix0 h2, fun j => ?_⟩
  obtain ⟨r, hr⟩ := allReal_of_reduce _ _ _ _ S _ ValueIdx.ix0 h3 j
  have h4' : Ideal.cmp .une (S j) (Ideal.ofBits .f32 0x00000000#32) = 1#1 :=
    Host.reduce_andi_all _ _ _ _ ValueIdx.ix0 h4 j
  refine ⟨r, fun hr0 => ne_zero_of_cmp (S j) h4' ?_, hr⟩
  rw [hr, hr0, EReal.coe_zero]

end Cert.PreDecode

end
-- ==== Proof.Assemble.lean ====
/-
  The algebraic claim assembled. The reference's result, on real entries with a nonzero real scale, is the mean over
  the rows of the block-accumulated entropy of the row's logits (in the product spelling) minus the second term; the
  reference's frame is its run with the result dropped; and, given a run of the kernel whose result is that same
  scalar, the two programs end with equal results from memories that agree on the arguments.
-/
import proofs.«123716_j58634893525570_2_alg».proof.Defs
import proofs.«123716_j58634893525570_2_alg».proof.Proof.RefValue
import proofs.«123716_j58634893525570_2_alg».proof.Proof.EntropyMath
import proofs.«123716_j58634893525570_2_alg».proof.Proof.PreDecode

noncomputable section

namespace Cert.Assemble

open Idealize.ShloMosaic Idealize.SL.Sem

/-- On real entries and a nonzero real scale the reference's result is the specification's final scalar over the
    block-accumulated row entropies of the logits in the product spelling. -/
theorem ref_result (X M : Cert.Spec.SX.Idx → EReal) (S : Cert.Spec.SS.Idx → EReal)
    (hX : ∀ j, ∃ r : ℝ, X j = (r : EReal)) (hM : ∀ j, ∃ r : ℝ, M j = (r : EReal))
    (hS : ∀ j, ∃ r : ℝ, r ≠ 0 ∧ S j = (r : EReal)) :
    Cert.ReferenceIdeal.ReadP.val_main_v37 (F := Ideal) X M S
      = fun _ => Cert.Spec.final (fun i => Cert.Spec.entK (fun k => Cert.Spec.logitK X M S i k))
          (Cert.ReferenceIdeal.ReadP.val_main_v36 (F := Ideal) M ValueIdx.ix0) := by
  have hlog := Cert.Spec.logit_agree X M S hX hM hS
  have hZ : ∀ i k : Fin 8192, ∃ r : ℝ, Cert.Spec.logitR X M S i k = (r : EReal) :=
    fun i k => (hlog i k).imp fun _ h => h.2
  funext j
  have hj := ValueIdx.eq_ix0 j
  subst hj
  rw [Cert.ReferenceIdeal.RefValue.result_apply X M S]
  refine congrArg (fun E => Cert.Spec.final E _) (funext fun i => ?_)
  obtain ⟨mx, hmx⟩ := Cert.ReferenceIdeal.RefValue.rows_apply X M S hZ i
  have hfun : (fun k => Cert.Spec.logitR X M S i k) = (fun k => Cert.Spec.logitK X M S i k) :=
    funext fun k => by obtain ⟨z, h1, h2⟩ := hlog i k; rw [h1, h2]
  rw [hmx, hfun]
  exact (Cert.Spec.ent_agree _ (fun k => (hlog i k).imp fun _ h => h.1) mx).symm

/-- The reference runs and leaves its arguments unchanged: its run with the result dropped. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.ValueP.run (F := Ideal) m ρ)

/-- Given a run of the kernel ending with its result at `kresult` and its arguments unchanged, and given that on real
    entries with a nonzero real scale `kresult` is the specification's final scalar, the algebraic claim holds. -/
theorem algebraic_of [hKernelIdeal : Cert.KernelIdeal.Facts] [hReferenceIdeal : Cert.ReferenceIdeal.Facts]
    [hPre_finite_inputs : Cert.Pre_finite_inputs.Facts]
    (kresult : (m : (ℓ : Loc Cert.KernelIdeal.nD Cert.KernelIdeal.τ Cert.KernelIdeal.sig) → Buf (Elt Ideal) ℓ) → (c : Dev Cert.KernelIdeal.nD) → Buf (Elt Ideal) ((c.tc : Thread Cert.KernelIdeal.nD Cert.KernelIdeal.τ).loc Cert.KernelIdeal.main_v21))
    (hrun : ∀ m (g : Dev Cert.KernelIdeal.nD → PrngReg), θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread _ Cert.KernelIdeal.τ).loc Cert.KernelIdeal.main_v21) = kresult m c
          ∧ r.2.mem ((c.tc : Thread _ Cert.KernelIdeal.τ).loc Cert.KernelIdeal.main_arg0) = m ((c.tc : Thread _ Cert.KernelIdeal.τ).loc Cert.KernelIdeal.main_arg0)
          ∧ r.2.mem ((c.tc : Thread _ Cert.KernelIdeal.τ).loc Cert.KernelIdeal.main_arg1) = m ((c.tc : Thread _ Cert.KernelIdeal.τ).loc Cert.KernelIdeal.main_arg1)
          ∧ r.2.mem ((c.tc : Thread _ Cert.KernelIdeal.τ).loc Cert.KernelIdeal.main_arg2) = m ((c.tc : Thread _ Cert.KernelIdeal.τ).loc Cert.KernelIdeal.main_arg2)))
    (hres : ∀ (m : (ℓ : Loc Cert.KernelIdeal.nD Cert.KernelIdeal.τ Cert.KernelIdeal.sig) → Buf (Elt Ideal) ℓ) (c : Dev Cert.KernelIdeal.nD),
          (∀ j, ∃ r : ℝ, (m ((c.tc : Thread _ Cert.KernelIdeal.τ).loc Cert.KernelIdeal.main_arg0) : Cert.Spec.SX.Idx → EReal) j = (r : EReal)) →
          (∀ j, ∃ r : ℝ, (m ((c.tc : Thread _ Cert.KernelIdeal.τ).loc Cert.KernelIdeal.main_arg1) : Cert.Spec.SX.Idx → EReal) j = (r : EReal)) →
          (∀ j, ∃ r : ℝ, r ≠ 0 ∧ (m ((c.tc : Thread _ Cert.KernelIdeal.τ).loc Cert.KernelIdeal.main_arg2) : Cert.Spec.SS.Idx → EReal) j = (r : EReal)) →
          (kresult m c : (⟨0, ![]⟩ : Shape).Idx → EReal)
            = fun _ => Cert.Spec.final (fun i => Cert.Spec.entK (fun k => Cert.Spec.logitK (m ((c.tc : Thread _ Cert.KernelIdeal.τ).loc Cert.KernelIdeal.main_arg0)) (m ((c.tc : Thread _ Cert.KernelIdeal.τ).loc Cert.KernelIdeal.main_arg1)) (m ((c.tc : Thread _ Cert.KernelIdeal.τ).loc Cert.KernelIdeal.main_arg2)) i k))
                (Cert.ReferenceIdeal.ReadP.val_main_v36 (F := Ideal) (m ((c.tc : Thread _ Cert.KernelIdeal.τ).loc Cert.KernelIdeal.main_arg1)) ValueIdx.ix0)) :
    Cert.algebraic_KernelIdeal_ReferenceIdeal := by
  intro m g m' g' hpre hagree
  refine ⟨fun c => kresult m c, hrun m g, ?_⟩
  refine (θ_run Cert.ReferenceIdeal.defs _ _).mono (fun _ h c => ⟨(h c).1.trans ?_, (h c).2⟩)
    (Cert.ReferenceIdeal.ValueP.run (F := Ideal) m' g')
  rw [Cert.ReferenceIdeal.ReadP.val_main_v37_eq, (hagree c).1, (hagree c).2.1, (hagree c).2.2]
  obtain ⟨hX, hM, hS⟩ := Cert.PreDecode.real_of_pre _ _ _ (hpre c)
  rw [ref_result _ _ _ hX hM hS]
  exact (hres m c hX hM hS).symm

end Cert.Assemble

end
-- ==== Proof.lean ====
/- The proof of the certificate's claim.
   Both programs compute, for 8192 points x_i and 8192 centres m_k with scales s_k, the mean over i of the
   entropy of softmax_k(-|x_i - m_k| / s_k), minus the trace of the centres' covariance. The kernel forms the
   logits as a product with 1 / s_k and, with no maximum subtracted, accumulates L = sum exp z and
   A = sum exp z * z over eight column blocks, ending with log L - A / L; the reference takes a log-softmax
   shifted by the row maximum and sums -p * log p. For real inputs with every s_k nonzero the logits are reals,
   the shift cancels, and the two entropies are one real number; the mean and the second term are then the same
   operations on the same values. The three frames are the generated ones; the idealization rewrote nothing. -/
import proofs.«123716_j58634893525570_2_alg».proof.Defs
import proofs.«123716_j58634893525570_2_alg».proof.Proof.Gen.Kernel
import proofs.«123716_j58634893525570_2_alg».proof.Proof.Gen.Kernel.Skeleton
import proofs.«123716_j58634893525570_2_alg».proof.Proof.Gen.Kernel.Launch
import proofs.«123716_j58634893525570_2_alg».proof.Proof.Gen.Kernel.Points
import proofs.«123716_j58634893525570_2_alg».proof.Proof.Gen.Kernel.Frame
import proofs.«123716_j58634893525570_2_alg».proof.Proof.Gen.KernelIdeal
import proofs.«123716_j58634893525570_2_alg».proof.Proof.Gen.KernelIdeal.Skeleton
import proofs.«123716_j58634893525570_2_alg».proof.Proof.Gen.KernelIdeal.Launch
import proofs.«123716_j58634893525570_2_alg».proof.Proof.Gen.KernelIdeal.Points
import proofs.«123716_j58634893525570_2_alg».proof.Proof.Gen.KernelIdeal.Frame
import proofs.«123716_j58634893525570_2_alg».proof.Proof.Gen.ReferenceIdeal
import proofs.«123716_j58634893525570_2_alg».proof.Proof.Gen.Pre_finite_inputs
import proofs.«123716_j58634893525570_2_alg».proof.Proof.KFinal
import proofs.«123716_j58634893525570_2_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Assemble.frame_ri (hReferenceIdeal := Cert.ReferenceIdeal.Gen.facts) (hPre_finite_inputs := Cert.Pre_finite_inputs.Gen.facts),
  trivial,
  @Cert.Assemble.algebraic_of Cert.KernelIdeal.Gen.facts Cert.ReferenceIdeal.Gen.facts Cert.Pre_finite_inputs.Gen.facts
    (fun m c => Cert.KernelIdeal.KValue.kresult m c)
    (fun m g => Cert.KernelIdeal.KValue.run m g)
    (fun m c _ _ _ => Cert.KernelIdeal.KValue.kresult_eq m c)⟩

end Cert.Proof

end
